-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v85)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v85) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S300000x64 : Shape := ⟨2, ![300000, 64]⟩
abbrev S10000x256 : Shape := ⟨2, ![10000, 256]⟩
abbrev S256x256 : Shape := ⟨2, ![256, 256]⟩
abbrev S64x256 : Shape := ⟨2, ![64, 256]⟩
abbrev S256 : Shape := ⟨1, ![256]⟩
abbrev S300000 : Shape := ⟨1, ![300000]⟩
abbrev S10000 : Shape := ⟨1, ![10000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S300000x64 : S_.BroadcastsInDim S300000x64 (![] : Fin 0 → Fin S300000x64.rank)
  reducesTo_S300000x64_S_d0_1 : S300000x64.ReducesTo [0, 1] S_
  bcast_S_S10000x256 : S_.BroadcastsInDim S10000x256 (![] : Fin 0 → Fin S10000x256.rank)
  reducesTo_S10000x256_S_d0_1 : S10000x256.ReducesTo [0, 1] S_
  bcast_S_S256x256 : S_.BroadcastsInDim S256x256 (![] : Fin 0 → Fin S256x256.rank)
  reducesTo_S256x256_S_d0_1 : S256x256.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg7 : FVec F S256x256 .f32) (main_arg8 : FVec F S256x256 .f32) (main_arg9 : FVec F S256 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256x256 .f32 := Host.absf main_arg8
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg4 : FVec F S64x256 .f32) (main_arg5 : FVec F S256x256 .f32) (main_arg6 : FVec F S256 .f32) (main_arg7 : FVec F S256x256 .f32) (main_arg8 : FVec F S256x256 .f32) (main_arg9 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_v33

def fn {F : FTy → Type} [FloatOps F] (main_arg0 : FVec F S100000x256 .f32) (main_arg1 : FVec F S300000x64 .f32) (main_arg2 : FVec F S10000x256 .f32) (main_arg3 : FVec F S256x256 .f32) (main_arg4 : FVec F S64x256 .f32) (main_arg5 : FVec F S256x256 .f32) (main_arg6 : FVec F S256 .f32) (main_arg7 : FVec F S256x256 .f32) (main_arg8 : FVec F S256x256 .f32) (main_arg9 : FVec F S256 .f32) (main_arg10 : IVec S300000 32) (main_arg11 : IVec S300000 32) (main_arg12 : IVec S10000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S300000x64 .f32 := Host.absf main_arg1
  let main_cst_0 : FVec F S_ .f32 := constant S_ .f32 0x7F800000#32
  let main_v5 : FVec F S300000x64 .f32 := broadcastInDim S300000x64 ![] bcast_S_S300000x64 main_cst_0
  let main_v6 : IVec S300000x64 1 := cmpf .olt main_v4 main_v5
  let main_c_1 : IVec S_ 1 := constantI S_ 1 1#1
  let main_v7 : IVec S_ 1 := (fun x v => Host.reduce IntOp.andi x v reducesTo_S300000x64_S_d0_1 h_S_) main_v6 main_c_1
  let main_v8 : IVec S_ 1 := andi main_v3 main_v7
  let main_v9 : FVec F S10000x256 .f32 := Host.absf main_arg2
  let main_cst_2 : FVec F S_ .f32 := constant S_ .f32 0x7F800000#32
  let main_v10 : FVec F S10000x256 .f32 := broadcastInDim S10000x256 ![] bcast_S_S10000x256 main_cst_2
  let main_v11 : IVec S10000x256 1 := cmpf .olt main_v9 main_v10
  let main_c_3 : IVec S_ 1 := constantI S_ 1 1#1
  let main_v12 : IVec S_ 1 := (fun x v => Host.reduce IntOp.andi x v reducesTo_S10000x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_v13 main_v16
-- ==== Kernel.lean ====
abbrev S100000x256 : Shape := ⟨2, ![100000, 256]⟩
abbrev S300000x64 : Shape := ⟨2, ![300000, 64]⟩
abbrev S10000x256 : Shape := ⟨2, ![10000, 256]⟩
abbrev S256x256 : Shape := ⟨2, ![256, 256]⟩
abbrev S64x256 : Shape := ⟨2, ![64, 256]⟩
abbrev S256 : Shape := ⟨1, ![256]⟩
abbrev S300000 : Shape := ⟨1, ![300000]⟩
abbrev S10000 : Shape := ⟨1, ![10000]⟩
abbrev S_ : Shape := ⟨0, ![]⟩
abbrev S300000x256 : Shape := ⟨2, ![300000, 256]⟩
abbrev S10000x1 : Shape := ⟨2, ![10000, 1]⟩
abbrev S300000x1 : Shape := ⟨2, ![300000, 1]⟩
abbrev S1x256 : Shape := ⟨2, ![1, 256]⟩
abbrev S3000x256 : Shape := ⟨2, ![3000, 256]⟩
abbrev S3000x64 : Shape := ⟨2, ![3000, 64]⟩
abbrev S2000x256 : Shape := ⟨2, ![2000, 256]⟩

abbrev nBuf : Space → Nat
  | .hbm => 122
  | .vmem => 39
  | .smem => 0
  | _ => 0

abbrev bufTy : (tb : Table) → Fin (tcTables nBuf tb) → BufTy
  | .hbm, ⟨0, _⟩ => ⟨S100000x256, .f32⟩
  | .hbm, ⟨1, _⟩ => ⟨S300000x64, .f32⟩
  | .hbm, ⟨2, _⟩ => ⟨S10000x256, .f32⟩
  | .hbm, ⟨3, _⟩ => ⟨S256x256, .f32⟩
  | .hbm, ⟨4, _⟩ => ⟨S64x256, .f32⟩
  | .hbm, ⟨5, _⟩ => ⟨S256x256, .f32⟩
  | .hbm, ⟨6, _⟩ => ⟨S256, .f32⟩
  | .hbm, ⟨7, _⟩ => ⟨S256x256, .f32⟩
  | .hbm, ⟨8, _⟩ => ⟨S256x256, .f32⟩
  | .hbm, ⟨9, _⟩ => ⟨S256, .f32⟩
  | .hbm, ⟨10, _⟩ => ⟨S300000, .i32⟩
  | .hbm, ⟨11, _⟩ => ⟨S300000, .i32⟩
  | .hbm, ⟨12, _⟩ => ⟨S10000, .i32⟩
  | .hbm, ⟨13, _⟩ => ⟨S_, .f32⟩
  | .hbm, ⟨14, _⟩ => ⟨S300000x256, .f32⟩
  | .hbm, ⟨15, _⟩ => ⟨S_, .i32⟩
  | .hbm, ⟨16, _⟩ => ⟨S10000, .i32⟩
  | .hbm, ⟨17, _⟩ => ⟨S10000, .i1⟩
  | .hbm, ⟨18, _⟩ => ⟨S_, .i32⟩
  | .hbm, ⟨19, _⟩ => ⟨S10000, .i32⟩
  | .hbm, ⟨20, _⟩ => ⟨S10000, .i32⟩
  | .hbm, ⟨21, _⟩ => ⟨S10000, .i32⟩
  | .hbm, ⟨22, _⟩ => ⟨S10000x1, .i32⟩
  | .hbm, ⟨23, _⟩ => ⟨S300000x256, .f32⟩
  | .hbm, ⟨24, _⟩ => ⟨S_, .i32⟩
  | .hbm, ⟨25, _⟩ => ⟨S300000, .i32⟩
  | .hbm, ⟨26, _⟩ => ⟨S300000, .i1⟩
  | .hbm, ⟨27, _⟩ => ⟨S_, .i32⟩
  | .hbm, ⟨28, _⟩ => ⟨S300000, .i32⟩
  | .hbm, ⟨29, _⟩ => ⟨S300000, .i32⟩
  | .hbm, ⟨30, _⟩ => ⟨S300000, .i32⟩
  | .hbm, ⟨31, _⟩ => ⟨S300000x1, .i32⟩
  | .hbm, ⟨32, _⟩ => ⟨S300000x256, .f32⟩
  | .hbm, ⟨33, _⟩ => ⟨S1x256, .f32⟩
  | .hbm, ⟨34, _⟩ => ⟨S300000x256, .f32⟩
  | .hbm, ⟨35, _⟩ => ⟨S300000, .i32⟩
  | .hbm, ⟨36, _⟩ => ⟨S_, .i32⟩
  | .hbm, ⟨37, _⟩ => ⟨S300000, .i32⟩
  | .hbm, ⟨38, _⟩ => ⟨S300000, .i32⟩
  | .hbm, ⟨39, _⟩ => ⟨S_, .f32⟩
  | .hbm, ⟨40, _⟩ => ⟨S300000x256, .f32⟩
  | .hbm, ⟨41, _⟩ => ⟨S_, .f32⟩
  | .hbm, ⟨42, _⟩ => ⟨S100000x256, .f32⟩
  | .hbm, ⟨43, _⟩ => ⟨S300000x1, .i32⟩
  | .hbm, ⟨44, _⟩ => ⟨S100000x256, .f32⟩
  | .hbm, ⟨45, _⟩ => ⟨S_, .i32⟩
  | .hbm, ⟨46, _⟩ => ⟨S300000, .i32⟩
  | .hbm, ⟨47, _⟩ => ⟨S300000, .i1⟩
  | .hbm, ⟨48, _⟩ => ⟨S_, .i32⟩
  | .hbm, ⟨49, _⟩ => ⟨S300000, .i32⟩
  | .hbm, ⟨50, _⟩ => ⟨S300000, .i32⟩
  | .hbm, ⟨51, _⟩ => ⟨S300000, .i32⟩
  | .hbm, ⟨52, _⟩ => ⟨S300000x1, .i32⟩
  | .hbm, ⟨53, _⟩ => ⟨S300000x256, .f32⟩
  | .hbm, ⟨54, _⟩ => ⟨S_, .i32⟩
  | .hbm, ⟨55, _⟩ => ⟨S300000, .i32⟩
  | .hbm, ⟨56, _⟩ => ⟨S300000, .i1⟩
  | .hbm, ⟨57, _⟩ => ⟨S_, .i32⟩
  | .hbm, ⟨58, _⟩ => ⟨S300000, .i32⟩
  | .hbm, ⟨59, _⟩ => ⟨S300000, .i32⟩
  | .hbm, ⟨60, _⟩ => ⟨S300000, .i32⟩
  | .hbm, ⟨61, _⟩ => ⟨S300000x1, .i32⟩
  | .hbm, ⟨62, _⟩ => ⟨S300000x256, .f32⟩
  | .hbm, ⟨63, _⟩ => ⟨S300000x256, .f32⟩
  | .hbm, ⟨64, _⟩ => ⟨S300000x256, .f32⟩
  | .hbm, ⟨65, _⟩ => ⟨S300000x256, .f32⟩
  | .hbm, ⟨66, _⟩ => ⟨S_, .f32⟩
  | .hbm, ⟨67, _⟩ => ⟨S100000x256, .f32⟩
  | .hbm, ⟨68, _⟩ => ⟨S300000x1, .i32⟩
  | .hbm, ⟨69, _⟩ => ⟨S100000x256, .f32⟩
  | .hbm, ⟨70, _⟩ => ⟨S_, .i32⟩
  | .hbm, ⟨71, _⟩ => ⟨S300000, .i32⟩
  | .hbm, ⟨72, _⟩ => ⟨S300000, .i1⟩
  | .hbm, ⟨73, _⟩ => ⟨S_, .i32⟩
  | .hbm, ⟨74, _⟩ => ⟨S300000, .i32⟩
  | .hbm, ⟨75, _⟩ => ⟨S300000, .i32⟩
  | .hbm, ⟨76, _⟩ => ⟨S300000, .i32⟩
  | .hbm, ⟨77, _⟩ => ⟨S300000x1, .i32⟩
  | .hbm, ⟨78, _⟩ => ⟨S300000x256, .f32⟩
  | .hbm, ⟨79, _⟩ => ⟨S_, .i32⟩
  | .hbm, ⟨80, _⟩ => ⟨S300000, .i32⟩
  | .hbm, ⟨81, _⟩ => ⟨S300000, .i1⟩
  | .hbm, ⟨82, _⟩ => ⟨S_, .i32⟩
  | .hbm, ⟨83, _⟩ => ⟨S300000, .i32⟩
  | .hbm, ⟨84, _⟩ => ⟨S300000, .i32⟩
  | .hbm, ⟨85, _⟩ => ⟨S300000, .i32⟩
  | .hbm, ⟨86, _⟩ => ⟨S300000x1, .i32⟩
  | .hbm, ⟨87, _⟩ => ⟨S300000x256, .f32⟩
  | .hbm, ⟨88, _⟩ => ⟨S300000x256, .f32⟩
  | .hbm, ⟨89, _⟩ => ⟨S300000x256, .f32⟩
  | .hbm, ⟨90, _⟩ => ⟨S300000x256, .f32⟩
  | .hbm, ⟨91, _⟩ => ⟨S_, .f32⟩
  | .hbm, ⟨92, _⟩ => ⟨S100000x256, .f32⟩
  | .hbm, ⟨93, _⟩ => ⟨S300000x1, .i32⟩
  | .hbm, ⟨94, _⟩ => ⟨S100000x256, .f32⟩
  | .hbm, ⟨95, _⟩ => ⟨S_, .i32⟩
  | .hbm, ⟨96, _⟩ => ⟨S300000, .i32⟩
  | .hbm, ⟨97, _⟩ => ⟨S300000, .i1⟩
  | .hbm, ⟨98, _⟩ => ⟨S_, .i32⟩
  | .hbm, ⟨99, _⟩ => ⟨S300000, .i32⟩
  | .hbm, ⟨100, _⟩ => ⟨S300000, .i32⟩
  | .hbm, ⟨101, _⟩ => ⟨S300000, .i32⟩
  | .hbm, ⟨102, _⟩ => ⟨S300000x1, .i32⟩
  | .hbm, ⟨103, _⟩ => ⟨S300000x256, .f32⟩
  | .hbm, ⟨104, _⟩ => ⟨S_, .i32⟩
  | .hbm, ⟨105, _⟩ => ⟨S300000, .i32⟩
  | .hbm, ⟨106, _⟩ => ⟨S300000, .i1⟩
  | .hbm, ⟨107, _⟩ => ⟨S_, .i32⟩
  | .hbm, ⟨108, _⟩ => ⟨S300000, .i32⟩
  | .hbm, ⟨109, _⟩ => ⟨S300000, .i32⟩
  | .hbm, ⟨110, _⟩ => ⟨S300000, .i32⟩
  | .hbm, ⟨111, _⟩ => ⟨S300000x1, .i32⟩
  | .hbm, ⟨112, _⟩ => ⟨S300000x256, .f32⟩
  | .hbm, ⟨113, _⟩ => ⟨S300000x256, .f32⟩
  | .hbm, ⟨114, _⟩ => ⟨S300000x256, .f32⟩
  | .hbm, ⟨115, _⟩ => ⟨S300000x256, .f32⟩
  | .hbm, ⟨116, _⟩ => ⟨S_, .f32⟩
  | .hbm, ⟨117, _⟩ => ⟨S100000x256, .f32⟩
  | .hbm, ⟨118, _⟩ => ⟨S300000x1, .i32⟩
  | .hbm, ⟨119, _⟩ => ⟨S100000x256, .f32⟩
  | .hbm, ⟨120, _⟩ => ⟨S1x256, .f32⟩
  | .hbm, ⟨121, _⟩ => ⟨S100000x256, .f32⟩
  | .local _ .vmem, ⟨0, _⟩ => ⟨S3000x256, .f32⟩
  | .local _ .vmem, ⟨1, _⟩ => ⟨S3000x256, .f32⟩
  | .local _ .vmem, ⟨2, _⟩ => ⟨S256x256, .f32⟩
  | .local _ .vmem, ⟨3, _⟩ => ⟨S3000x64, .f32⟩
  | .local _ .vmem, ⟨4, _⟩ => ⟨S3000x64, .f32⟩
  | .local _ .vmem, ⟨5, _⟩ => ⟨S64x256, .f32⟩
  | .local _ .vmem, ⟨6, _⟩ => ⟨S1x256, .f32⟩
  | .local _ .vmem, ⟨7, _⟩ => ⟨S3000x256, .f32⟩
  | .local _ .vmem, ⟨8, _⟩ => ⟨S3000x256, .f32⟩
  | .local _ .vmem, ⟨9, _⟩ => ⟨S3000x256, .f32⟩
  | .local _ .vmem, ⟨10, _⟩ => ⟨S3000x256, .f32⟩
  | .local _ .vmem, ⟨11, _⟩ => ⟨S256x256, .f32⟩
  | .local _ .vmem, ⟨12, _⟩ => ⟨S3000x256, .f32⟩
  | .local _ .vmem, ⟨13, _⟩ => ⟨S3000x256, .f32⟩
  | .local _ .vmem, ⟨14, _⟩ => ⟨S3000x256, .f32⟩
  | .local _ .vmem, ⟨15, _⟩ => ⟨S3000x256, .f32⟩
  | .local _ .vmem, ⟨16, _⟩ => ⟨S3000x256, .f32⟩
  | .local _ .vmem, ⟨17, _⟩ => ⟨S3000x256, .f32⟩
  | .local _ .vmem, ⟨18, _⟩ => ⟨S256x256, .f32⟩
  | .local _ .vmem, ⟨19, _⟩ => ⟨S3000x256, .f32⟩
  | .local _ .vmem, ⟨20, _⟩ => ⟨S3000x256, .f32⟩
  | .local _ .vmem, ⟨21, _⟩ => ⟨S3000x256, .f32⟩
  | .local _ .vmem, ⟨22, _⟩ => ⟨S3000x256, .f32⟩
  | .local _ .vmem, ⟨23, _⟩ => ⟨S3000x256, .f32⟩
  | .local _ .vmem, ⟨24, _⟩ => ⟨S3000x256, .f32⟩
  | .local _ .vmem, ⟨25, _⟩ => ⟨S256x256, .f32⟩
  | .local _ .vmem, ⟨26, _⟩ => ⟨S3000x256, .f32⟩
  | .local _ .vmem, ⟨27, _⟩ => ⟨S3000x256, .f32⟩
  | .local _ .vmem, ⟨28, _⟩ => ⟨S3000x256, .f32⟩
  | .local _ .vmem, ⟨29, _⟩ => ⟨S3000x256, .f32⟩
  | .local _ .vmem, ⟨30, _⟩ => ⟨S2000x256, .f32⟩
  | .local _ .vmem, ⟨31, _⟩ => ⟨S2000x256, .f32⟩
  | .local _ .vmem, ⟨32, _⟩ => ⟨S256x256, .f32⟩
  | .local _ .vmem, ⟨33, _⟩ => ⟨S2000x256, .f32⟩
  | .local _ .vmem, ⟨34, _⟩ => ⟨S2000x256, .f32⟩
  | .local _ .vmem, ⟨35, _⟩ => ⟨S256x256, .f32⟩
  | .local _ .vmem, ⟨36, _⟩ => ⟨S1x256, .f32⟩
  | .local _ .vmem, ⟨37, _⟩ => ⟨S2000x256, .f32⟩
  | .local _ .vmem, ⟨38, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  ofTc nBuf bufTy 0 39 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_cst_5 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_c_7 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_8 : Ref sig .tc := ⟨.hbm, 54, rfl⟩
abbrev main_v31 : Ref sig .tc := ⟨.hbm, 55, rfl⟩
abbrev main_v32 : Ref sig .tc := ⟨.hbm, 56, rfl⟩
abbrev main_c_9 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_10 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_c_11 : Ref sig .tc := ⟨.hbm, 70, rfl⟩
abbrev main_v44 : Ref sig .tc := ⟨.hbm, 71, rfl⟩
abbrev main_v45 : Ref sig .tc := ⟨.hbm, 72, rfl⟩
abbrev main_c_12 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_c_13 : Ref sig .tc := ⟨.hbm, 79, rfl⟩
abbrev main_v51 : Ref sig .tc := ⟨.hbm, 80, rfl⟩
abbrev main_v52 : Ref sig .tc := ⟨.hbm, 81, rfl⟩
abbrev main_c_14 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_cst_15 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_c_16 : Ref sig .tc := ⟨.hbm, 95, rfl⟩
abbrev main_v64 : Ref sig .tc := ⟨.hbm, 96, rfl⟩
abbrev main_v65 : Ref sig .tc := ⟨.hbm, 97, rfl⟩
abbrev main_c_17 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_c_18 : Ref sig .tc := ⟨.hbm, 104, rfl⟩
abbrev main_v71 : Ref sig .tc := ⟨.hbm, 105, rfl⟩
abbrev main_v72 : Ref sig .tc := ⟨.hbm, 106, rfl⟩
abbrev main_c_19 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_20 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg0_1 : Ref sig .tc := ⟨.vmem, 31, rfl⟩
abbrev cc4_stg1_0 : Ref sig .tc := ⟨.vmem, 32, rfl⟩
abbrev cc4_stg2_0 : Ref sig .tc := ⟨.vmem, 33, rfl⟩
abbrev cc4_stg2_1 : Ref sig .tc := ⟨.vmem, 34, rfl⟩
abbrev cc4_stg3_0 : Ref sig .tc := ⟨.vmem, 35, rfl⟩
abbrev cc4_stg4_0 : Ref sig .tc := ⟨.vmem, 36, rfl⟩
abbrev cc4_stg5_0 : Ref sig .tc := ⟨.vmem, 37, rfl⟩
abbrev cc4_stg5_1 : Ref sig .tc := ⟨.vmem, 38, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem2_0 : DmaSem sig := 26
abbrev cc3_sem2_1 : DmaSem sig := 27
abbrev cc3_sem3_0 : DmaSem sig := 28
abbrev cc3_sem3_1 : DmaSem sig := 29
abbrev cc4_sem0_0 : DmaSem sig := 30
abbrev cc4_sem0_1 : DmaSem sig := 31
abbrev cc4_sem1_0 : DmaSem sig := 32
abbrev cc4_sem2_0 : DmaSem sig := 33
abbrev cc4_sem2_1 : DmaSem sig := 34
abbrev cc4_sem3_0 : DmaSem sig := 35
abbrev cc4_sem4_0 : DmaSem sig := 36
abbrev cc4_sem5_0 : DmaSem sig := 37
abbrev cc4_sem5_1 : DmaSem sig := 38

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S3000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S3000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S3000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S3000x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S3000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S3000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S3000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S3000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S3000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S3000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S256x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S2000x256 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S300000x256 : S_.BroadcastsInDim S300000x256 (![] : Fin 0 → Fin S300000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S300000 : S_.BroadcastsInDim S300000 (![] : Fin 0 → Fin S300000.rank)
  bcast_S300000_S300000x1_0 : S300000.BroadcastsInDim S300000x1 (![0] : Fin 1 → Fin S300000x1.rank)
  shapeCasts_S256_S1x256 : S256.ShapeCasts S1x256
  inb_S3000x256_S3000x256_0_0 : ∀ a, (![0, 0] : Fin 2 → Nat) a + S3000x256.size a ≤ S3000x256.size a
  h_S3000x256 : 0 < S3000x256.numel
  shapeCasts_S3000x256_S3000x256 : S3000x256.ShapeCasts S3000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S3000x64_S3000x64_0_0 : ∀ a, (![0, 0] : Fin 2 → Nat) a + S3000x64.size a ≤ S3000x64.size a
  h_S3000x64 : 0 < S3000x64.numel
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S3000x256 : S1x256.Broadcasts S3000x256
  bcast_S_S100000x256 : S_.BroadcastsInDim S100000x256 (![] : Fin 0 → Fin S100000x256.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S1x256_S2000x256 : S1x256.Broadcasts S2000x256
  scatter_S300000x256_S10000x1_S10000x256_1_0_0_1_wf : ScatterDims.WF S300000x256 S10000x1 S10000x256 [1] [0] [0] 1
  gather_S100000x256_S300000x1_S300000x256_1_0_n_n_0_1_1256_wf : GatherDims.WF S100000x256 S300000x1 S300000x256 [1] [0] [] [0] [] 1 ![1, 256]
  dot_S3000x256_S256x256_S3000x256_1_0_0_1_n_n_wf : DotDims.WF S3000x256 S256x256 S3000x256 [1] [0] [0] [1] [] []
  dot_S3000x64_S64x256_S3000x256_1_0_0_1_n_n_wf : DotDims.WF S3000x64 S64x256 S3000x256 [1] [0] [0] [1] [] []
  scatter_S100000x256_S300000x1_S300000x256_1_0_0_1_wf : ScatterDims.WF S100000x256 S300000x1 S300000x256 [1] [0] [0] 1
  gather_S300000x256_S300000x1_S300000x256_1_0_n_n_0_1_1256_wf : GatherDims.WF S300000x256 S300000x1 S300000x256 [1] [0] [] [0] [] 1 ![1, 256]
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x256.size a ≤ S300000x256.size a
  hwx0_0 : ∀ i : grid0.Coords, EltTy.bits .f32 = 32 ∨ (Rect.block (s := S300000x256) S3000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x64.size a ≤ S300000x64.size a
  hwx0_2 : ∀ i : grid0.Coords, EltTy.bits .f32 = 32 ∨ (Rect.block (s := S300000x64) S3000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S3000x256.size a ≤ S300000x256.size a
  hwx0_5 : ∀ i : grid0.Coords, EltTy.bits .f32 = 32 ∨ (Rect.block (s := S300000x256) S3000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x256.size a ≤ S300000x256.size a
  hwx1_0 : ∀ i : grid1.Coords, EltTy.bits .f32 = 32 ∨ (Rect.block (s := S300000x256) S3000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3000x256.size a ≤ S300000x256.size a
  hwx1_2 : ∀ i : grid1.Coords, EltTy.bits .f32 = 32 ∨ (Rect.block (s := S300000x256) S3000x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S3000x256.size a ≤ S300000x256.size a
  hwx1_3 : ∀ i : grid1.Coords, EltTy.bits .f32 = 32 ∨ (Rect.block (s := S300000x256) S3000x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S3000x256.size a ≤ S300000x256.size a
  hwx2_0 : ∀ i : grid2.Coords, EltTy.bits .f32 = 32 ∨ (Rect.block (s := S300000x256) S3000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S3000x256.size a ≤ S300000x256.size a
  hwx2_2 : ∀ i : grid2.Coords, EltTy.bits .f32 = 32 ∨ (Rect.block (s := S300000x256) S3000x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S3000x256.size a ≤ S300000x256.size a
  hwx2_3 : ∀ i : grid2.Coords, EltTy.bits .f32 = 32 ∨ (Rect.block (s := S300000x256) S3000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S3000x256.size a ≤ S300000x256.size a
  hwx3_0 : ∀ i : grid3.Coords, EltTy.bits .f32 = 32 ∨ (Rect.block (s := S300000x256) S3000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S3000x256.size a ≤ S300000x256.size a
  hwx3_2 : ∀ i : grid3.Coords, EltTy.bits .f32 = 32 ∨ (Rect.block (s := S300000x256) S3000x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S3000x256.size a ≤ S300000x256.size a
  hwx3_3 : ∀ i : grid3.Coords, EltTy.bits .f32 = 32 ∨ (Rect.block (s := S300000x256) S3000x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x256.size a ≤ S100000x256.size a
  hwx4_0 : ∀ i : grid4.Coords, EltTy.bits .f32 = 32 ∨ (Rect.block (s := S100000x256) S2000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x256.size a ≤ S100000x256.size a
  hwx4_2 : ∀ i : grid4.Coords, EltTy.bits .f32 = 32 ∨ (Rect.block (s := S100000x256) S2000x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S256x256.size a ≤ S256x256.size a
  hwx4_3 : ∀ i : grid4.Coords, EltTy.bits .f32 = 32 ∨ (Rect.block (s := S256x256) S256x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S2000x256.size a ≤ S100000x256.size a
  hwx4_5 : ∀ i : grid4.Coords, EltTy.bits .f32 = 32 ∨ (Rect.block (s := S100000x256) S2000x256.size (cc4_transform_5 i) (hinb4_5 i)).WholeWords (EltTy.packing .f32)

variable [Facts₀]

def scatter_S300000x256_S10000x1_S10000x256_1_0_0_1 : ScatterDims S300000x256 S10000x1 S10000x256 where
  updateWindowDims := [1]
  insertedWindowDims := [0]
  scatterDimsToOperandDims := [0]
  indexVectorDim := 1
  wf := scatter_S300000x256_S10000x1_S10000x256_1_0_0_1_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S3000x256_S256x256_S3000x256_1_0_0_1_n_n : DotDims S3000x256 S256x256 S3000x256 where
  lhsContracting := [1]
  rhsContracting := [0]
  lhsNonContracting := [0]
  rhsNonContracting := [1]
  lhsBatch := []
  rhsBatch := []
  wf := dot_S3000x256_S256x256_S3000x256_1_0_0_1_n_n_wf
def dot_S3000x64_S64x256_S3000x256_1_0_0_1_n_n : DotDims S3000x64 S64x256 S3000x256 where
  lhsContracting := [1]
  rhsContracting := [0]
  lhsNonContracting := [0]
  rhsNonContracting := [1]
  lhsBatch := []
  rhsBatch := []
  wf := dot_S3000x64_S64x256_S3000x256_1_0_0_1_n_n_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def gather_S300000x256_S300000x1_S300000x256_1_0_n_n_0_1_1256 : GatherDims S300000x256 S300000x1 S300000x256 where
  offsetDims := [1]
  collapsedSliceDims := [0]
  operandBatchingDims := []
  startIndicesBatchingDims := []
  startIndexMap := [0]
  indexVectorDim := 1
  sliceSizes := ![1, 256]
  wf := gather_S300000x256_S300000x1_S300000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v14) S3000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S3000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S3000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S3000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v16) S3000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v40) S3000x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v59) S3000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S3000x256.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v60) S3000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v79) S3000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v16) S3000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v80) S3000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg0) S2000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83) S2000x256.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_arg8) S256x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v84) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v85) S2000x256.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x256 : Shape := ⟨2, ![100000, 256]⟩
abbrev S300000x64 : Shape := ⟨2, ![300000, 64]⟩
abbrev S10000x256 : Shape := ⟨2, ![10000, 256]⟩
abbrev S256x256 : Shape := ⟨2, ![256, 256]⟩
abbrev S64x256 : Shape := ⟨2, ![64, 256]⟩
abbrev S256 : Shape := ⟨1, ![256]⟩
abbrev S300000 : Shape := ⟨1, ![300000]⟩
abbrev S10000 : Shape := ⟨1, ![10000]⟩
abbrev S_ : Shape := ⟨0, ![]⟩
abbrev S300000x256 : Shape := ⟨2, ![300000, 256]⟩
abbrev S10000x1 : Shape := ⟨2, ![10000, 1]⟩
abbrev S300000x1 : Shape := ⟨2, ![300000, 1]⟩
abbrev S1x256 : Shape := ⟨2, ![1, 256]⟩

abbrev nBuf : Space → Nat
  | .hbm => 145
  | .vmem => 0
  | .smem => 0
  | _ => 0

abbrev hbmTy0_0 (i : Nat) : BufTy := match i % 128 with
  | 0 => ⟨S100000x256, .f32⟩
  | 1 => ⟨S300000x64, .f32⟩
  | 2 => ⟨S10000x256, .f32⟩
  | 3 => ⟨S256x256, .f32⟩
  | 4 => ⟨S64x256, .f32⟩
  | 5 => ⟨S256x256, .f32⟩
  | 6 => ⟨S256, .f32⟩
  | 7 => ⟨S256x256, .f32⟩
  | 8 => ⟨S256x256, .f32⟩
  | 9 => ⟨S256, .f32⟩
  | 10 => ⟨S300000, .i32⟩
  | 11 => ⟨S300000, .i32⟩
  | 12 => ⟨S10000, .i32⟩
  | 13 => ⟨S_, .f32⟩
  | 14 => ⟨S300000x256, .f32⟩
  | 15 => ⟨S_, .i32⟩
  | 16 => ⟨S10000, .i32⟩
  | 17 => ⟨S10000, .i1⟩
  | 18 => ⟨S_, .i32⟩
  | 19 => ⟨S10000, .i32⟩
  | 20 => ⟨S10000, .i32⟩
  | 21 => ⟨S10000, .i32⟩
  | 22 => ⟨S10000x1, .i32⟩
  | 23 => ⟨S300000x256, .f32⟩
  | 24 => ⟨S_, .i32⟩
  | 25 => ⟨S300000, .i32⟩
  | 26 => ⟨S300000, .i1⟩
  | 27 => ⟨S_, .i32⟩
  | 28 => ⟨S300000, .i32⟩
  | 29 => ⟨S300000, .i32⟩
  | 30 => ⟨S300000, .i32⟩
  | 31 => ⟨S300000x1, .i32⟩
  | 32 => ⟨S300000x256, .f32⟩
  | 33 => ⟨S300000x256, .f32⟩
  | 34 => ⟨S300000x256, .f32⟩
  | 35 => ⟨S300000x256, .f32⟩
  | 36 => ⟨S1x256, .f32⟩
  | 37 => ⟨S300000x256, .f32⟩
  | 38 => ⟨S300000x256, .f32⟩
  | 39 => ⟨S300000, .i32⟩
  | 40 => ⟨S_, .i32⟩
  | 41 => ⟨S300000, .i32⟩
  | 42 => ⟨S300000, .i32⟩
  | 43 => ⟨S_, .f32⟩
  | 44 => ⟨S300000x256, .f32⟩
  | 45 => ⟨S_, .f32⟩
  | 46 => ⟨S100000x256, .f32⟩
  | 47 => ⟨S300000x1, .i32⟩
  | 48 => ⟨S100000x256, .f32⟩
  | 49 => ⟨S_, .i32⟩
  | 50 => ⟨S300000, .i32⟩
  | 51 => ⟨S300000, .i1⟩
  | 52 => ⟨S_, .i32⟩
  | 53 => ⟨S300000, .i32⟩
  | 54 => ⟨S300000, .i32⟩
  | 55 => ⟨S300000, .i32⟩
  | 56 => ⟨S300000x1, .i32⟩
  | 57 => ⟨S300000x256, .f32⟩
  | 58 => ⟨S_, .i32⟩
  | 59 => ⟨S300000, .i32⟩
  | 60 => ⟨S300000, .i1⟩
  | 61 => ⟨S_, .i32⟩
  | 62 => ⟨S300000, .i32⟩
  | 63 => ⟨S300000, .i32⟩
  | 64 => ⟨S300000, .i32⟩
  | 65 => ⟨S300000x1, .i32⟩
  | 66 => ⟨S300000x256, .f32⟩
  | 67 => ⟨S300000x256, .f32⟩
  | 68 => ⟨S300000x256, .f32⟩
  | 69 => ⟨S300000x256, .f32⟩
  | 70 => ⟨S300000x256, .f32⟩
  | 71 => ⟨S_, .f32⟩
  | 72 => ⟨S300000x256, .f32⟩
  | 73 => ⟨S300000x256, .f32⟩
  | 74 => ⟨S_, .f32⟩
  | 75 => ⟨S100000x256, .f32⟩
  | 76 => ⟨S300000x1, .i32⟩
  | 77 => ⟨S100000x256, .f32⟩
  | 78 => ⟨S_, .i32⟩
  | 79 => ⟨S300000, .i32⟩
  | 80 => ⟨S300000, .i1⟩
  | 81 => ⟨S_, .i32⟩
  | 82 => ⟨S300000, .i32⟩
  | 83 => ⟨S300000, .i32⟩
  | 84 => ⟨S300000, .i32⟩
  | 85 => ⟨S300000x1, .i32⟩
  | 86 => ⟨S300000x256, .f32⟩
  | 87 => ⟨S_, .i32⟩
  | 88 => ⟨S300000, .i32⟩
  | 89 => ⟨S300000, .i1⟩
  | 90 => ⟨S_, .i32⟩
  | 91 => ⟨S300000, .i32⟩
  | 92 => ⟨S300000, .i32⟩
  | 93 => ⟨S300000, .i32⟩
  | 94 => ⟨S300000x1, .i32⟩
  | 95 => ⟨S300000x256, .f32⟩
  | 96 => ⟨S300000x256, .f32⟩
  | 97 => ⟨S300000x256, .f32⟩
  | 98 => ⟨S300000x256, .f32⟩
  | 99 => ⟨S300000x256, .f32⟩
  | 100 => ⟨S_, .f32⟩
  | 101 => ⟨S300000x256, .f32⟩
  | 102 => ⟨S300000x256, .f32⟩
  | 103 => ⟨S_, .f32⟩
  | 104 => ⟨S100000x256, .f32⟩
  | 105 => ⟨S300000x1, .i32⟩
  | 106 => ⟨S100000x256, .f32⟩
  | 107 => ⟨S_, .i32⟩
  | 108 => ⟨S300000, .i32⟩
  | 109 => ⟨S300000, .i1⟩
  | 110 => ⟨S_, .i32⟩
  | 111 => ⟨S300000, .i32⟩
  | 112 => ⟨S300000, .i32⟩
  | 113 => ⟨S300000, .i32⟩
  | 114 => ⟨S300000x1, .i32⟩
  | 115 => ⟨S300000x256, .f32⟩
  | 116 => ⟨S_, .i32⟩
  | 117 => ⟨S300000, .i32⟩
  | 118 => ⟨S300000, .i1⟩
  | 119 => ⟨S_, .i32⟩
  | 120 => ⟨S300000, .i32⟩
  | 121 => ⟨S300000, .i32⟩
  | 122 => ⟨S300000, .i32⟩
  | 123 => ⟨S300000x1, .i32⟩
  | 124 => ⟨S300000x256, .f32⟩
  | 125 => ⟨S300000x256, .f32⟩
  | 126 => ⟨S300000x256, .f32⟩
  | 127 => ⟨S300000x256, .f32⟩
  | _ => ⟨S100000x256, .f32⟩

abbrev hbmTy0_1 (i : Nat) : BufTy := match i % 128 with
  | 0 => ⟨S300000x256, .f32⟩
  | 1 => ⟨S_, .f32⟩
  | 2 => ⟨S300000x256, .f32⟩
  | 3 => ⟨S300000x256, .f32⟩
  | 4 => ⟨S_, .f32⟩
  | 5 => ⟨S100000x256, .f32⟩
  | 6 => ⟨S300000x1, .i32⟩
  | 7 => ⟨S100000x256, .f32⟩
  | 8 => ⟨S100000x256, .f32⟩
  | 9 => ⟨S100000x256, .f32⟩
  | 10 => ⟨S100000x256, .f32⟩
  | 11 => ⟨S1x256, .f32⟩
  | 12 => ⟨S100000x256, .f32⟩
  | 13 => ⟨S100000x256, .f32⟩
  | 14 => ⟨S_, .f32⟩
  | 15 => ⟨S100000x256, .f32⟩
  | 16 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c_1 : Ref sig .tc := ⟨.hbm, 24, rfl⟩
abbrev main_v8 : Ref sig .tc := ⟨.hbm, 25, rfl⟩
abbrev main_v9 : Ref sig .tc := ⟨.hbm, 26, rfl⟩
abbrev main_c_2 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_6 : Ref sig .tc := ⟨.hbm, 49, rfl⟩
abbrev main_v28 : Ref sig .tc := ⟨.hbm, 50, rfl⟩
abbrev main_v29 : Ref sig .tc := ⟨.hbm, 51, rfl⟩
abbrev main_c_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_c_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call0_cst : Ref sig .tc := ⟨.hbm, 71, rfl⟩
abbrev main_call0_v0 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_c_11 : Ref sig .tc := ⟨.hbm, 78, rfl⟩
abbrev main_v50 : Ref sig .tc := ⟨.hbm, 79, rfl⟩
abbrev main_v51 : Ref sig .tc := ⟨.hbm, 80, rfl⟩
abbrev main_c_12 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_c_13 : Ref sig .tc := ⟨.hbm, 87, rfl⟩
abbrev main_v57 : Ref sig .tc := ⟨.hbm, 88, rfl⟩
abbrev main_v58 : Ref sig .tc := ⟨.hbm, 89, rfl⟩
abbrev main_c_14 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_call1_cst : Ref sig .tc := ⟨.hbm, 100, rfl⟩
abbrev main_call1_v0 : Ref sig .tc := ⟨.hbm, 101, rfl⟩
abbrev main_v68 : Ref sig .tc := ⟨.hbm, 102, rfl⟩
abbrev main_cst_15 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_16 : Ref sig .tc := ⟨.hbm, 107, rfl⟩
abbrev main_v72 : Ref sig .tc := ⟨.hbm, 108, rfl⟩
abbrev main_v73 : Ref sig .tc := ⟨.hbm, 109, rfl⟩
abbrev main_c_17 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_c_18 : Ref sig .tc := ⟨.hbm, 116, rfl⟩
abbrev main_v79 : Ref sig .tc := ⟨.hbm, 117, rfl⟩
abbrev main_v80 : Ref sig .tc := ⟨.hbm, 118, rfl⟩
abbrev main_c_19 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_call2_cst : Ref sig .tc := ⟨.hbm, 129, rfl⟩
abbrev main_call2_v0 : Ref sig .tc := ⟨.hbm, 130, rfl⟩
abbrev main_v90 : Ref sig .tc := ⟨.hbm, 131, rfl⟩
abbrev main_cst_20 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_call3_cst : Ref sig .tc := ⟨.hbm, 142, rfl⟩
abbrev main_call3_v0 : Ref sig .tc := ⟨.hbm, 143, rfl⟩
abbrev main_v100 : Ref sig .tc := ⟨.hbm, 144, rfl⟩

abbrev nD : Nat := 1
abbrev τ : Topo := Topo.v7x

variable {F : FTy → Type} [FloatOps F]

class Facts₀ : Prop where
  bcast_S_S300000x256 : S_.BroadcastsInDim S300000x256 (![] : Fin 0 → Fin S300000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S300000 : S_.BroadcastsInDim S300000 (![] : Fin 0 → Fin S300000.rank)
  bcast_S300000_S300000x1_0 : S300000.BroadcastsInDim S300000x1 (![0] : Fin 1 → Fin S300000x1.rank)
  bcast_S256_S1x256_1 : S256.BroadcastsInDim S1x256 (![1] : Fin 1 → Fin S1x256.rank)
  bcast_S1x256_S300000x256_0_1 : S1x256.BroadcastsInDim S300000x256 (![0, 1] : Fin 2 → Fin S300000x256.rank)
  bcast_S_S100000x256 : S_.BroadcastsInDim S100000x256 (![] : Fin 0 → Fin S100000x256.rank)
  bcast_S1x256_S100000x256_0_1 : S1x256.BroadcastsInDim S100000x256 (![0, 1] : Fin 2 → Fin S100000x256.rank)
  scatter_S300000x256_S10000x1_S10000x256_1_0_0_1_wf : ScatterDims.WF S300000x256 S10000x1 S10000x256 [1] [0] [0] 1
  gather_S100000x256_S300000x1_S300000x256_1_0_n_n_0_1_1256_wf : GatherDims.WF S100000x256 S300000x1 S300000x256 [1] [0] [] [0] [] 1 ![1, 256]
  dot_S300000x256_S256x256_S300000x256_1_0_0_1_n_n_wf : DotDims.WF S300000x256 S256x256 S300000x256 [1] [0] [0] [1] [] []
  dot_S300000x64_S64x256_S300000x256_1_0_0_1_n_n_wf : DotDims.WF S300000x64 S64x256 S300000x256 [1] [0] [0] [1] [] []
  scatter_S100000x256_S300000x1_S300000x256_1_0_0_1_wf : ScatterDims.WF S100000x256 S300000x1 S300000x256 [1] [0] [0] 1
  gather_S300000x256_S300000x1_S300000x256_1_0_n_n_0_1_1256_wf : GatherDims.WF S300000x256 S300000x1 S300000x256 [1] [0] [] [0] [] 1 ![1, 256]
  dot_S100000x256_S256x256_S100000x256_1_0_0_1_n_n_wf : DotDims.WF S100000x256 S256x256 S100000x256 [1] [0] [0] [1] [] []

variable [Facts₀]

def scatter_S300000x256_S10000x1_S10000x256_1_0_0_1 : ScatterDims S300000x256 S10000x1 S10000x256 where
  updateWindowDims := [1]
  insertedWindowDims := [0]
  scatterDimsToOperandDims := [0]
  indexVectorDim := 1
  wf := scatter_S300000x256_S10000x1_S10000x256_1_0_0_1_wf
def gather_S100000x256_S300000x1_S300000x256_1_0_n_n_0_1_1256 : GatherDims S100000x256 S300000x1 S300000x256 where
  offsetDims := [1]
  collapsedSliceDims := [0]
  operandBatchingDims := []
  startIndicesBatchingDims := []
  startIndexMap := [0]
  indexVectorDim := 1
  sliceSizes := ![1, 256]
  wf := gather_S100000x256_S300000x1_S300000x256_1_0_n_n_0_1_1256_wf
def dot_S300000x256_S256x256_S300000x256_1_0_0_1_n_n : DotDims S300000x256 S256x256 S300000x256 where
  lhsContracting := [1]
  rhsContracting := [0]
  lhsNonContracting := [0]
  rhsNonContracting := [1]
  lhsBatch := []
  rhsBatch := []
  wf := dot_S300000x256_S256x256_S300000x256_1_0_0_1_n_n_wf
def dot_S300000x64_S64x256_S300000x256_1_0_0_1_n_n : DotDims S300000x64 S64x256 S300000x256 where
  lhsContracting := [1]
  rhsContracting := [0]
  lhsNonContracting := [0]
  rhsNonContracting := [1]
  lhsBatch := []
  rhsBatch := []
  wf := dot_S300000x64_S64x256_S300000x256_1_0_0_1_n_n_wf
def scatter_S100000x256_S300000x1_S300000x256_1_0_0_1 : ScatterDims S100000x256 S300000x1 S300000x256 where
  updateWindowDims := [1]
  insertedWindowDims := [0]
  scatterDimsToOperandDims := [0]
  indexVectorDim := 1
  wf := scatter_S100000x256_S300000x1_S300000x256_1_0_0_1_wf
def gather_S300000x256_S300000x1_S300000x256_1_0_n_n_0_1_1256 : GatherDims S300000x256 S300000x1 S300000x256 where
  offsetDims := [1]
  collapsedSliceDims := [0]
  operandBatchingDims := []
  startIndicesBatchingDims := []
  startIndexMap := [0]
  indexVectorDim := 1
  sliceSizes := ![1, 256]
  wf := gather_S300000x256_S300000x1_S300000x256_1_0_n_n_0_1_1256_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.Named.lean ====
/-
  The run with its result named.

  Every weakly fair execution of the program on the TensorCores terminates without a fault; the argument arrays end as
  launched, and the result buffer ends at what the fold of the program's segments — a stretch of host operations, a
  launched stage, a stretch, a stage, … — leaves in it. The fold's contents at the result buffer are then a computation
  on the argument arrays, which the later modules carry out stage by stage.
-/
import proofs.«103938_j57492432224748_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The launch over the program's ten segments, the last thread state read against the final state: the result buffer
    at the last boundary's contents, each argument at its launch contents. -/
theorem run : θ_run defs (onTc (τ := τ) (main (F := F))) ⟨m, fun _ => 0, ρ⟩ (fun r => ∀ c : Dev nD,
      r.2.mem ((c.tc : Thread nD τ).loc main_v85) = W10 m ρ c (Proc.devRef .tc main_v85)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v85 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c)⟩)

end Cert.KernelIdeal.Named

end
-- ==== Proof.LibMatmul2.lean ====
/-
  A plain matrix product read at an index.

  A `tpu.matmul` with dimension numbers "contract axis 1 of the left operand with axis 0 of the right, no batch axes"
  of an [A, K] and a [K, B] matrix into the zero accumulator is, at the ideal values and at output position (p, q),
  the sum over k < K of left(p, k) · right(k, q): the contraction shape has the one axis of extent K, and the operand
  indices at output (p, q) and contraction position k are (p, k) and (k, q).
-/
import Idealize.ShloMosaic.PureOps.Ideal.Laws
import Idealize.ShloMosaic.Lib.ValueIdx

noncomputable section

namespace Cert.Lib

open Idealize.ShloMosaic Idealize.ShloMosaic.ValueIdx

variable {A K B : ℕ} {φ₁ φ₂ : FTy}

/-- The dimension numbers of a plain matrix product: rows × contraction times contraction × columns. -/
abbrev plain2 (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ := ⟨[1], [0], [0], [1], [], [], wf⟩

/-- Its contraction shape has one axis, -/
theorem plain2_rank (wf : DotDims.WF ⟨2, ![A, K]⟩ ⟨2, ![K, B]⟩ ⟨2, ![A, B]⟩ [1] [0] [0] [1] [] []) :
    (plain2 wf).contr.rank = 1 := rfl

/-- of extent `K`. -/
theorem plain2_size (wf : DotDims.WF ⟨2, ![A, K]⟩ ⟨2, ![K, B]⟩ ⟨2, ![A, B]⟩ [1] [0] [0] [1] [] []) :
    (plain2 wf).contr.size ⟨0, by rw [plain2_rank]; exact Nat.one_pos⟩ = K := rfl

/-- The product into the zero accumulator at (p, q) is `∑ k, l (p, k) * r (k, q)`. -/
theorem matmul2_zero_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    matmul (plain2 wf) none l r (constant ⟨2, ![A, B]⟩ .f32 0x00000000#32) (ix2 p q)
      = ∑ k : Fin K, l (ix2 p k) * r (ix2 k q) := by
  refine (Ideal.matmul_constant_zero_apply (plain2 wf) none l r (ix2 p q)).trans ?_
  refine (Equiv.sum_comp (contrEquiv1 (plain2 wf) K (plain2_rank wf) (plain2_size wf)).symm _).symm.trans ?_
  refine Finset.sum_congr rfl fun k _ => ?_
  have hk := contrEquiv1_symm_val (plain2 wf) K (plain2_rank wf) (plain2_size wf) k
  have hl : (plain2 wf).lhsIdx (ix2 p q) ((contrEquiv1 (plain2 wf) K (plain2_rank wf) (plain2_size wf)).symm k) = ix2 p k := by
    funext a; apply Fin.ext
    match a with
    | ⟨0, _⟩ => simp [DotDims.lhsIdx]; rfl
    | ⟨1, _⟩ => exact (DotDims.lhsIdx_val_of_single (plain2 wf) (cl := 1) rfl (ix2 p q) _).trans hk
  have hr : (plain2 wf).rhsIdx (ix2 p q) ((contrEquiv1 (plain2 wf) K (plain2_rank wf) (plain2_size wf)).symm k) = ix2 k q := by
    funext a; apply Fin.ext
    match a with
    | ⟨0, _⟩ => exact (DotDims.rhsIdx_val_of_single (plain2 wf) (cr := 0) rfl (ix2 p q) _).trans hk
    | ⟨1, _⟩ => simp [DotDims.rhsIdx]; rfl
  show l _ * r _ = _
  rw [hl, hr]

end Cert.Lib

end
-- ==== Proof.LibHostDot2.lean ====
/-
  The host's plain matrix product read at an index.

  A `dot_general` on the host with the dimension numbers of a plain matrix product ("contract axis 1 of the left operand
  with axis 0 of the right, no batch axes") of an [A, K] and a [K, B] matrix is, at the ideal values and at output
  position (p, q), the sum over k < K of left(p, k) · right(k, q): the host product has no accumulator, its contraction
  shape has the one axis of extent K, and the operand indices at output (p, q) and contraction position k are (p, k)
  and (k, q). It is the same sum a `tpu.matmul` of those dimension numbers into the zero accumulator computes
  (`Cert.Lib.matmul2_zero_apply`), so a kernel that multiplies block by block and a reference that multiplies once
  agree entry by entry.
-/
import proofs.«103938_j57492432224748_1_alg».proof.Proof.LibMatmul2

noncomputable section

namespace Cert.Lib

open Idealize.ShloMosaic Idealize.ShloMosaic.ValueIdx

variable {A K B : ℕ} {φ₁ φ₂ : FTy}

/-- At output position (p, q) and contraction position k the left operand of a plain product is read at (p, k), -/
theorem plain2_lhsIdx (wf : DotDims.WF ⟨2, ![A, K]⟩ ⟨2, ![K, B]⟩ ⟨2, ![A, B]⟩ [1] [0] [0] [1] [] [])
    (p : Fin A) (q : Fin B) (k : Fin K) :
    (plain2 wf).lhsIdx (ix2 p q) ((contrEquiv1 (plain2 wf) K (plain2_rank wf) (plain2_size wf)).symm k) = ix2 p k := by
  have hk := contrEquiv1_symm_val (plain2 wf) K (plain2_rank wf) (plain2_size wf) k
  funext a; apply Fin.ext
  match a with
  | ⟨0, _⟩ => simp [DotDims.lhsIdx]; rfl
  | ⟨1, _⟩ => exact (DotDims.lhsIdx_val_of_single (plain2 wf) (cl := 1) rfl (ix2 p q) _).trans hk

/-- and the right operand at (k, q). -/
theorem plain2_rhsIdx (wf : DotDims.WF ⟨2, ![A, K]⟩ ⟨2, ![K, B]⟩ ⟨2, ![A, B]⟩ [1] [0] [0] [1] [] [])
    (p : Fin A) (q : Fin B) (k : Fin K) :
    (plain2 wf).rhsIdx (ix2 p q) ((contrEquiv1 (plain2 wf) K (plain2_rank wf) (plain2_size wf)).symm k) = ix2 k q := by
  have hk := contrEquiv1_symm_val (plain2 wf) K (plain2_rank wf) (plain2_size wf) k
  funext a; apply Fin.ext
  match a with
  | ⟨0, _⟩ => exact (DotDims.rhsIdx_val_of_single (plain2 wf) (cr := 0) rfl (ix2 p q) _).trans hk
  | ⟨1, _⟩ => simp [DotDims.rhsIdx]; rfl

/-- The host's product at (p, q) is `∑ k, l (p, k) * r (k, q)`. -/
theorem hostDot2_apply (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (p : Fin A) (q : Fin B) :
    Host.dotGeneral (plain2 wf) none l r (ix2 p q) = ∑ k : Fin K, l (ix2 p k) * r (ix2 k q) := by
  refine (Ideal.dotGeneral_apply (plain2 wf) none .single l r (ix2 p q)).trans ?_
  refine (Equiv.sum_comp (contrEquiv1 (plain2 wf) K (plain2_rank wf) (plain2_size wf)).symm _).symm.trans ?_
  refine Finset.sum_congr rfl fun k _ => ?_
  show l _ * r _ = _
  rw [plain2_lhsIdx, plain2_rhsIdx]

end Cert.Lib

end
-- ==== Proof.LibHostRowCol.lean ====
/-
  A host program's two ways of spreading a vector over a matrix, read at an entry.

  jnp's `v[None, :]` against a matrix prints as two `broadcast_in_dim`s: the vector `[n]` becomes the row `[1, n]` and
  the row is repeated to `[a, n]`; `v[:, None]` likewise makes the column `[a, 1]` and repeats it to `[a, n]`. Read at
  `(r, q)` the first is the vector at `q` and the second the vector at `r`. Generic in the extents and the element type.
-/
import Idealize.ShloMosaic.Lib.Pipeline.Value
import Idealize.ShloMosaic.Lib.ValueIdx

namespace Cert.Lib

open Idealize.ShloMosaic Idealize.ShloMosaic.ValueIdx

variable {α : Type}

/-- A vector made a row and repeated down the rows reads, at `(r, q)`, the vector at `q`. -/
theorem bcast_row_rows_apply {a n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![1, n]⟩ ![1] h1 v) (ix2 r q) = v (ix1 q) := by
  refine (broadcastInDim_apply _ h2 _ (ix2 r q) (ix2 (0 : Fin 1) q) fun ax => ?_).trans
    (broadcastInDim_apply _ h1 v (ix2 (0 : Fin 1) q) (ix1 q) fun ax => ?_)
  · match ax with
    | ⟨0, _⟩ => rfl
    | ⟨1, _⟩ =>
      show q.val = if n = 1 then 0 else q.val
      split
      · have := q.isLt; omega
      · rfl
  · match ax with
    | ⟨0, _⟩ =>
      show q.val = if n = 1 then 0 else q.val
      split
      · have := q.isLt; omega
      · rfl

/-- A vector made a column and repeated along the rows reads, at `(r, q)`, the vector at `r`. -/
theorem bcast_col_cols_apply {a n : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, n]⟩ (![0, 1] : Fin 2 → Fin 2)) (r : Fin a) (q : Fin n) :
    broadcastInDim ⟨2, ![a, n]⟩ ![0, 1] h2 (broadcastInDim ⟨2, ![a, 1]⟩ ![0] h1 v) (ix2 r q) = v (ix1 r) := by
  refine (broadcastInDim_apply _ h2 _ (ix2 r q) (ix2 r (0 : Fin 1)) fun ax => ?_).trans
    (broadcastInDim_apply _ h1 v (ix2 r (0 : Fin 1)) (ix1 r) fun ax => ?_)
  · match ax with
    | ⟨0, _⟩ =>
      show r.val = if a = 1 then 0 else r.val
      split
      · have := r.isLt; omega
      · rfl
    | ⟨1, _⟩ => rfl
  · match ax with
    | ⟨0, _⟩ =>
      show r.val = if a = 1 then 0 else r.val
      split
      · have := r.isLt; omega
      · rfl

end Cert.Lib
-- ==== Proof.LibHostBiasRelu.lean ====
/-
  A bias row added on the host, then a rectified linear unit, read at an entry.

  The host adds a bias vector of length B to every row of an [A, B] array by making the vector a [1, B] row and
  repeating it down the A rows, then takes the maximum with the all-zero array (the scalar zero repeated to [A, B]).
  At the ideal values entry (p, q) of the result is max (u (p, q) + bias q, 0): the repeated row reads the bias at the
  entry's column, and the repeated scalar reads zero everywhere.
-/
import proofs.«103938_j57492432224748_1_alg».proof.Proof.LibHostRowCol
import Idealize.ShloMosaic.Lib.Pipeline.Value
import Idealize.ShloMosaic.Lib.ValueIdx

noncomputable section

namespace Cert.Lib

open Idealize.ShloMosaic Idealize.ShloMosaic.ValueIdx

/-- A scalar repeated to any shape reads, at every index, the scalar. -/
theorem bcast_scalar_apply {α : Type} {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply ![] h x j ix0 fun a => a.elim0

/-- The host's bias-add and rectified linear unit at entry (p, q) is `max (u (p, q) + bias q) 0`. -/
theorem hostBiasRelu_apply {A B : ℕ} (u : FVec Ideal ⟨2, ![A, B]⟩ .f32) (bias : FVec Ideal ⟨1, ![B]⟩ .f32)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2)) (p : Fin A) (q : Fin B) :
    maximumf (addf u (broadcastInDim ⟨2, ![A, B]⟩ ![0, 1] h2 (broadcastInDim ⟨2, ![1, B]⟩ ![1] h1 bias)))
        (broadcastInDim ⟨2, ![A, B]⟩ ![] h0 (constant (F := Ideal) ⟨0, ![]⟩ .f32 0x00000000#32)) (ix2 p q)
      = max (u (ix2 p q) + bias (ix1 q)) (Ideal.ofBits .f32 0x00000000#32) := by
  rw [maximumf_apply, addf_apply, bcast_row_rows_apply bias h1 h2 p q, bcast_scalar_apply _ h0 (ix2 p q), constant_apply]

end Cert.Lib

end
-- ==== Proof.Layers.lean ====
/-
  Dense layers read entry by entry, on the extended reals.

  Three layers occur in a message-passing network over a graph's directed edges:
    * the edge embedding   a · Wa + b · Wb + bias                      (no rectifier),
    * the message update   max (x · W + y, 0),
    * the node readout     max (a · Wa + b · Wb + bias, 0).
  Each is stated here as a function of the whole operand arrays, entry by entry: entry (p, q) of a product is the sum
  over the contracted index k of left (p, k) · right (k, q). Two spellings of each layer are then read at an entry and
  found to be that function: the spelling of a tile program (products into a zero accumulator, the bias a [1, B] row
  broadcast down the rows, the rectifier a maximum with a splat zero) and the spelling of a host program (one
  dot_general per product, the bias vector made a row and repeated, the rectifier a maximum with a repeated scalar
  zero). A change of float format is the identity on extended reals, so operands narrowed before a product read as
  themselves. Everything is generic in the extents.
-/
import Idealize.ShloMosaic.Lib.ValueLayout
import proofs.«103938_j57492432224748_1_alg».proof.Proof.LibMatmul2
import proofs.«103938_j57492432224748_1_alg».proof.Proof.LibHostDot2
import proofs.«103938_j57492432224748_1_alg».proof.Proof.LibHostRowCol
import proofs.«103938_j57492432224748_1_alg».proof.Proof.LibHostBiasRelu

noncomputable section

namespace Cert.Layers

open Idealize.ShloMosaic Idealize.ShloMosaic.ValueIdx Cert.Lib

variable {A K L B : ℕ}

/-- The extended real a zero word of the 32-bit format denotes. -/
abbrev zero32 : EReal := Ideal.ofBits .f32 0x00000000#32

/-- Entry (p, q) of a · wa + b · wb + bias, the bias a [1, B] row. -/
def affine2At (a : FVec Ideal ⟨2, ![A, K]⟩ .f32) (wa : FVec Ideal ⟨2, ![K, B]⟩ .f32)
    (b : FVec Ideal ⟨2, ![A, L]⟩ .f32) (wb : FVec Ideal ⟨2, ![L, B]⟩ .f32) (bias : FVec Ideal ⟨2, ![1, B]⟩ .f32)
    (p : Fin A) (q : Fin B) : EReal :=
  ((∑ k : Fin K, a (ix2 p k) * wa (ix2 k q)) + (∑ k : Fin L, b (ix2 p k) * wb (ix2 k q))) + bias (ix2 (0 : Fin 1) q)

/-- The edge embedding as a whole array. -/
def affine2 (a : FVec Ideal ⟨2, ![A, K]⟩ .f32) (wa : FVec Ideal ⟨2, ![K, B]⟩ .f32)
    (b : FVec Ideal ⟨2, ![A, L]⟩ .f32) (wb : FVec Ideal ⟨2, ![L, B]⟩ .f32) (bias : FVec Ideal ⟨2, ![1, B]⟩ .f32) :
    FVec Ideal ⟨2, ![A, B]⟩ .f32 :=
  fun i => affine2At a wa b wb bias (i 0) (i 1)

/-- The node readout as a whole array: the same affine map, then the rectifier. -/
def affine2Relu (a : FVec Ideal ⟨2, ![A, K]⟩ .f32) (wa : FVec Ideal ⟨2, ![K, B]⟩ .f32)
    (b : FVec Ideal ⟨2, ![A, L]⟩ .f32) (wb : FVec Ideal ⟨2, ![L, B]⟩ .f32) (bias : FVec Ideal ⟨2, ![1, B]⟩ .f32) :
    FVec Ideal ⟨2, ![A, B]⟩ .f32 :=
  fun i => max (affine2At a wa b wb bias (i 0) (i 1)) zero32

/-- Entry (p, q) of max (x · w + y, 0). -/
def dotAddReluAt (x : FVec Ideal ⟨2, ![A, K]⟩ .f32) (w : FVec Ideal ⟨2, ![K, B]⟩ .f32) (y : FVec Ideal ⟨2, ![A, B]⟩ .f32)
    (p : Fin A) (q : Fin B) : EReal :=
  max ((∑ k : Fin K, x (ix2 p k) * w (ix2 k q)) + y (ix2 p q)) zero32

/-- The message update as a whole array. -/
def dotAddRelu (x : FVec Ideal ⟨2, ![A, K]⟩ .f32) (w : FVec Ideal ⟨2, ![K, B]⟩ .f32) (y : FVec Ideal ⟨2, ![A, B]⟩ .f32) :
    FVec Ideal ⟨2, ![A, B]⟩ .f32 :=
  fun i => dotAddReluAt x w y (i 0) (i 1)

/-! ## A tile program's spelling -/

/-- Two products into zero accumulators, added, plus the bias row broadcast down the rows: at (p, q) the affine map. -/
theorem tileAffine2_apply {φ₁ φ₂ φ₃ φ₄ : FTy}
    (wf1 : DotDims.WF ⟨2, ![A, K]⟩ ⟨2, ![K, B]⟩ ⟨2, ![A, B]⟩ [1] [0] [0] [1] [] [])
    (wf2 : DotDims.WF ⟨2, ![A, L]⟩ ⟨2, ![L, B]⟩ ⟨2, ![A, B]⟩ [1] [0] [0] [1] [] [])
    (l1 : FVec Ideal ⟨2, ![A, K]⟩ φ₁) (r1 : FVec Ideal ⟨2, ![K, B]⟩ φ₂)
    (l2 : FVec Ideal ⟨2, ![A, L]⟩ φ₃) (r2 : FVec Ideal ⟨2, ![L, B]⟩ φ₄) (bias : FVec Ideal ⟨2, ![1, B]⟩ .f32)
    (hb : (⟨2, ![1, B]⟩ : Shape).Broadcasts ⟨2, ![A, B]⟩) (p : Fin A) (q : Fin B) :
    addf (addf (matmul (plain2 wf1) none l1 r1 (constant ⟨2, ![A, B]⟩ .f32 0x00000000#32))
               (matmul (plain2 wf2) none l2 r2 (constant ⟨2, ![A, B]⟩ .f32 0x00000000#32)))
         (broadcastTo ⟨2, ![A, B]⟩ bias hb) (ix2 p q)
      = ((∑ k : Fin K, l1 (ix2 p k) * r1 (ix2 k q)) + (∑ k : Fin L, l2 (ix2 p k) * r2 (ix2 k q)))
          + bias (ix2 (0 : Fin 1) q) := by
  show (matmul (plain2 wf1) none l1 r1 (constant ⟨2, ![A, B]⟩ .f32 0x00000000#32) (ix2 p q)
        + matmul (plain2 wf2) none l2 r2 (constant ⟨2, ![A, B]⟩ .f32 0x00000000#32) (ix2 p q))
        + broadcastTo ⟨2, ![A, B]⟩ bias hb (ix2 p q) = _
  rw [matmul2_zero_apply wf1 l1 r1 p q, matmul2_zero_apply wf2 l2 r2 p q, broadcastTo_1b_ab_apply bias hb p q]

/-- One product into the zero accumulator plus an array, then the maximum with a splat zero: at (p, q) the update. -/
theorem tileDotAddRelu_apply {φ₁ φ₂ : FTy}
    (wf : DotDims.WF ⟨2, ![A, K]⟩ ⟨2, ![K, B]⟩ ⟨2, ![A, B]⟩ [1] [0] [0] [1] [] [])
    (l : FVec Ideal ⟨2, ![A, K]⟩ φ₁) (r : FVec Ideal ⟨2, ![K, B]⟩ φ₂) (y : FVec Ideal ⟨2, ![A, B]⟩ .f32)
    (p : Fin A) (q : Fin B) :
    maximumf (addf (matmul (plain2 wf) none l r (constant ⟨2, ![A, B]⟩ .f32 0x00000000#32)) y)
        (broadcast ⟨2, ![A, B]⟩ (Scalar.ofBits (F := Ideal) .f32 0x00000000#32)) (ix2 p q)
      = max ((∑ k : Fin K, l (ix2 p k) * r (ix2 k q)) + y (ix2 p q)) zero32 := by
  show max (matmul (plain2 wf) none l r (constant ⟨2, ![A, B]⟩ .f32 0x00000000#32) (ix2 p q) + y (ix2 p q)) _ = _
  rw [matmul2_zero_apply wf l r p q]
  rfl

/-- The same two products and bias row, then the maximum with a splat zero: at (p, q) the readout. -/
theorem tileAffine2Relu_apply {φ₁ φ₂ φ₃ φ₄ : FTy}
    (wf1 : DotDims.WF ⟨2, ![A, K]⟩ ⟨2, ![K, B]⟩ ⟨2, ![A, B]⟩ [1] [0] [0] [1] [] [])
    (wf2 : DotDims.WF ⟨2, ![A, L]⟩ ⟨2, ![L, B]⟩ ⟨2, ![A, B]⟩ [1] [0] [0] [1] [] [])
    (l1 : FVec Ideal ⟨2, ![A, K]⟩ φ₁) (r1 : FVec Ideal ⟨2, ![K, B]⟩ φ₂)
    (l2 : FVec Ideal ⟨2, ![A, L]⟩ φ₃) (r2 : FVec Ideal ⟨2, ![L, B]⟩ φ₄) (bias : FVec Ideal ⟨2, ![1, B]⟩ .f32)
    (hb : (⟨2, ![1, B]⟩ : Shape).Broadcasts ⟨2, ![A, B]⟩) (p : Fin A) (q : Fin B) :
    maximumf (addf (addf (matmul (plain2 wf1) none l1 r1 (constant ⟨2, ![A, B]⟩ .f32 0x00000000#32))
                         (matmul (plain2 wf2) none l2 r2 (constant ⟨2, ![A, B]⟩ .f32 0x00000000#32)))
                   (broadcastTo ⟨2, ![A, B]⟩ bias hb))
        (broadcast ⟨2, ![A, B]⟩ (Scalar.ofBits (F := Ideal) .f32 0x00000000#32)) (ix2 p q)
      = max (((∑ k : Fin K, l1 (ix2 p k) * r1 (ix2 k q)) + (∑ k : Fin L, l2 (ix2 p k) * r2 (ix2 k q)))
          + bias (ix2 (0 : Fin 1) q)) zero32 := by
  rw [maximumf_apply, tileAffine2_apply wf1 wf2 l1 r1 l2 r2 bias hb p q]
  rfl

/-! ## A host program's spelling -/

/-- Two dot_generals added, plus the bias vector made a row and repeated: at (p, q) the affine map of the bias read as
    a [1, B] row. -/
theorem hostAffine2_apply
    (wf1 : DotDims.WF ⟨2, ![A, K]⟩ ⟨2, ![K, B]⟩ ⟨2, ![A, B]⟩ [1] [0] [0] [1] [] [])
    (wf2 : DotDims.WF ⟨2, ![A, L]⟩ ⟨2, ![L, B]⟩ ⟨2, ![A, B]⟩ [1] [0] [0] [1] [] [])
    (a : FVec Ideal ⟨2, ![A, K]⟩ .f32) (wa : FVec Ideal ⟨2, ![K, B]⟩ .f32)
    (b : FVec Ideal ⟨2, ![A, L]⟩ .f32) (wb : FVec Ideal ⟨2, ![L, B]⟩ .f32) (bias : FVec Ideal ⟨1, ![B]⟩ .f32)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (hc : (⟨1, ![B]⟩ : Shape).ShapeCasts ⟨2, ![1, B]⟩) (p : Fin A) (q : Fin B) :
    addf (addf (Host.dotGeneral (plain2 wf1) none a wa) (Host.dotGeneral (plain2 wf2) none b wb))
         (broadcastInDim ⟨2, ![A, B]⟩ ![0, 1] h2 (broadcastInDim ⟨2, ![1, B]⟩ ![1] h1 bias)) (ix2 p q)
      = affine2At a wa b wb (shapeCast ⟨2, ![1, B]⟩ bias hc) p q := by
  show (Host.dotGeneral (plain2 wf1) none a wa (ix2 p q) + Host.dotGeneral (plain2 wf2) none b wb (ix2 p q))
        + broadcastInDim ⟨2, ![A, B]⟩ ![0, 1] h2 (broadcastInDim ⟨2, ![1, B]⟩ ![1] h1 bias) (ix2 p q) = _
  rw [hostDot2_apply wf1 a wa p q, hostDot2_apply wf2 b wb p q, bcast_row_rows_apply bias h1 h2 p q]
  unfold affine2At
  rw [shapeCast_a_1a_apply bias hc (0 : Fin 1) q]

/-- The same, then the maximum with a repeated scalar zero: at (p, q) the readout. -/
theorem hostAffine2Relu_apply
    (wf1 : DotDims.WF ⟨2, ![A, K]⟩ ⟨2, ![K, B]⟩ ⟨2, ![A, B]⟩ [1] [0] [0] [1] [] [])
    (wf2 : DotDims.WF ⟨2, ![A, L]⟩ ⟨2, ![L, B]⟩ ⟨2, ![A, B]⟩ [1] [0] [0] [1] [] [])
    (a : FVec Ideal ⟨2, ![A, K]⟩ .f32) (wa : FVec Ideal ⟨2, ![K, B]⟩ .f32)
    (b : FVec Ideal ⟨2, ![A, L]⟩ .f32) (wb : FVec Ideal ⟨2, ![L, B]⟩ .f32) (bias : FVec Ideal ⟨1, ![B]⟩ .f32)
    (h1 : (⟨1, ![B]⟩ : Shape).BroadcastsInDim ⟨2, ![1, B]⟩ (![1] : Fin 1 → Fin 2))
    (h2 : (⟨2, ![1, B]⟩ : Shape).BroadcastsInDim ⟨2, ![A, B]⟩ (![0, 1] : Fin 2 → Fin 2))
    (h0 : (⟨0, ![]⟩ : Shape).BroadcastsInDim ⟨2, ![A, B]⟩ (![] : Fin 0 → Fin 2))
    (hc : (⟨1, ![B]⟩ : Shape).ShapeCasts ⟨2, ![1, B]⟩) (p : Fin A) (q : Fin B) :
    maximumf (addf (addf (Host.dotGeneral (plain2 wf1) none a wa) (Host.dotGeneral (plain2 wf2) none b wb))
                   (broadcastInDim ⟨2, ![A, B]⟩ ![0, 1] h2 (broadcastInDim ⟨2, ![1, B]⟩ ![1] h1 bias)))
        (broadcastInDim ⟨2, ![A, B]⟩ ![] h0 (constant (F := Ideal) ⟨0, ![]⟩ .f32 0x00000000#32)) (ix2 p q)
      = max (affine2At a wa b wb (shapeCast ⟨2, ![1, B]⟩ bias hc) p q) zero32 := by
  rw [maximumf_apply, hostAffine2_apply wf1 wf2 a wa b wb bias h1 h2 hc p q, bcast_scalar_apply _ h0 (ix2 p q), constant_apply]

/-- An array plus one dot_general (the array first), then the maximum with a repeated scalar zero: at (p, q) the
    update; the sum of two extended reals does not depend on their order. -/
theorem hostDotAddRelu_apply
    (wf : DotDims.WF ⟨2, ![A, K]⟩ ⟨2, ![K, B]⟩ ⟨2, ![A, B]⟩ [1] [0] [0] [1] [] [])
    (x : FVec Ideal ⟨2, ![A, K]⟩ .f32) (w : FVec Ideal ⟨2, ![K, B]⟩ .f32) (y : FVec Ideal ⟨2, ![A, B]⟩ .f32)
    (h0 : (⟨0, ![]⟩ : Shape).BroadcastsInDim ⟨2, ![A, B]⟩ (![] : Fin 0 → Fin 2)) (p : Fin A) (q : Fin B) :
    maximumf (addf y (Host.dotGeneral (plain2 wf) none x w))
        (broadcastInDim ⟨2, ![A, B]⟩ ![] h0 (constant (F := Ideal) ⟨0, ![]⟩ .f32 0x00000000#32)) (ix2 p q)
      = dotAddReluAt x w y p q := by
  rw [maximumf_apply, addf_apply, hostDot2_apply wf x w p q, bcast_scalar_apply _ h0 (ix2 p q), constant_apply, add_comm]
  rfl

end Cert.Layers

end
-- ==== Proof.Tiles.lean ====
/-
  What each launched stage stores, read at an entry of its tile.

  The five stages of the network store one value per grid point: the edge embedding stores a · Wa + b · Wb + bias of
  its row tile, the three message updates store max (x · W + y, 0), the readout max (a · Wa + b · Wb + bias, 0). The
  operands are narrowed to a 16-bit format before each product; on extended reals that is the identity, and the
  shape casts the bodies print are between equal shapes. So each stored value, at row p and column q of the tile, is
  the layer's entry formula over the tile's operands.
-/
import proofs.«103938_j57492432224748_1_alg».proof.Proof.Gen.KernelIdeal.Skeleton
import proofs.«103938_j57492432224748_1_alg».proof.Proof.Layers

noncomputable section

namespace Cert.KernelIdeal.Tiles

open Cert.KernelIdeal Cert.KernelIdeal.Gen Idealize.ShloMosaic Idealize.ShloMosaic.ValueIdx Cert.Layers Cert.Lib

/-- The edge embedding's tile: rows of the gathered node features and of the edge features, 3000 at a time. -/
theorem embed_apply (x0 : Vec Ideal S3000x256 .f32) (x1 : Vec Ideal S256x256 .f32) (x2 : Vec Ideal S3000x64 .f32)
    (x3 : Vec Ideal S64x256 .f32) (x4 : Vec Ideal S1x256 .f32) (p : Fin 3000) (q : Fin 256) :
    k0_pay1 (F := Ideal) x0 x1 x2 x3 x4 (ix2 p q) = affine2At x0 x1 x2 x3 x4 p q := by
  unfold k0_pay1
  simp only [shapeCast_self]
  exact tileAffine2_apply dot_S3000x256_S256x256_S3000x256_1_0_0_1_n_n.wf dot_S3000x64_S64x256_S3000x256_1_0_0_1_n_n.wf
    (truncf .bf16 x0 bitsLt_bf16_f32) (truncf .bf16 x1 bitsLt_bf16_f32) (truncf .bf16 x2 bitsLt_bf16_f32)
    (truncf .bf16 x3 bitsLt_bf16_f32) x4 broadcasts_S1x256_S3000x256 p q

/-- The first message update's tile. -/
theorem update1_apply (x0 : Vec Ideal S3000x256 .f32) (x1 : Vec Ideal S256x256 .f32) (x2 : Vec Ideal S3000x256 .f32)
    (p : Fin 3000) (q : Fin 256) :
    k1_pay1 (F := Ideal) x0 x1 x2 (ix2 p q) = dotAddReluAt x0 x1 x2 p q := by
  unfold k1_pay1
  simp only [shapeCast_self]
  exact tileDotAddRelu_apply dot_S3000x256_S256x256_S3000x256_1_0_0_1_n_n.wf
    (truncf .bf16 x0 bitsLt_bf16_f32) (truncf .bf16 x1 bitsLt_bf16_f32) x2 p q

/-- The second message update's tile. -/
theorem update2_apply (x0 : Vec Ideal S3000x256 .f32) (x1 : Vec Ideal S256x256 .f32) (x2 : Vec Ideal S3000x256 .f32)
    (p : Fin 3000) (q : Fin 256) :
    k2_pay1 (F := Ideal) x0 x1 x2 (ix2 p q) = dotAddReluAt x0 x1 x2 p q := by
  unfold k2_pay1
  simp only [shapeCast_self]
  exact tileDotAddRelu_apply dot_S3000x256_S256x256_S3000x256_1_0_0_1_n_n.wf
    (truncf .bf16 x0 bitsLt_bf16_f32) (truncf .bf16 x1 bitsLt_bf16_f32) x2 p q

/-- The third message update's tile. -/
theorem update3_apply (x0 : Vec Ideal S3000x256 .f32) (x1 : Vec Ideal S256x256 .f32) (x2 : Vec Ideal S3000x256 .f32)
    (p : Fin 3000) (q : Fin 256) :
    k3_pay1 (F := Ideal) x0 x1 x2 (ix2 p q) = dotAddReluAt x0 x1 x2 p q := by
  unfold k3_pay1
  simp only [shapeCast_self]
  exact tileDotAddRelu_apply dot_S3000x256_S256x256_S3000x256_1_0_0_1_n_n.wf
    (truncf .bf16 x0 bitsLt_bf16_f32) (truncf .bf16 x1 bitsLt_bf16_f32) x2 p q

/-- The readout's tile: rows of the node features and of the summed messages, 2000 at a time. -/
theorem readout_apply (x0 : Vec Ideal S2000x256 .f32) (x1 : Vec Ideal S256x256 .f32) (x2 : Vec Ideal S2000x256 .f32)
    (x3 : Vec Ideal S256x256 .f32) (x4 : Vec Ideal S1x256 .f32) (p : Fin 2000) (q : Fin 256) :
    k4_pay1 (F := Ideal) x0 x1 x2 x3 x4 (ix2 p q) = max (affine2At x0 x1 x2 x3 x4 p q) zero32 := by
  unfold k4_pay1
  simp only [shapeCast_self]
  exact tileAffine2Relu_apply dot_S2000x256_S256x256_S2000x256_1_0_0_1_n_n.wf dot_S2000x256_S256x256_S2000x256_1_0_0_1_n_n.wf
    (truncf .bf16 x0 bitsLt_bf16_f32) (truncf .bf16 x1 bitsLt_bf16_f32) (truncf .bf16 x2 bitsLt_bf16_f32)
    (truncf .bf16 x3 bitsLt_bf16_f32) x4 broadcasts_S1x256_S2000x256 p q

end Cert.KernelIdeal.Tiles

end
-- ==== Proof.Embed.lean ====
/-
  The edge embedding as a whole array.

  The embedding is computed 3000 edge rows at a time over 100 grid points: point t reads rows 3000 t … 3000 t + 2999 of
  the gathered node features and of the edge features, the two weight matrices and the bias row whole, and writes the
  same rows of the result. Row p of point t's tile is row 3000 t + p of the arrays, the weights and the bias are read
  where they lie, so what point t writes back is block t of the layer's whole-array function of the arrays the stage
  finds; the 100 blocks tile the 300000 rows, so the result array ends holding that function.
-/
import proofs.«103938_j57492432224748_1_alg».proof.Proof.Gen.KernelIdeal.Frame
import proofs.«103938_j57492432224748_1_alg».proof.Proof.Tiles
import Idealize.ShloMosaic.Lib.Pipeline.Value

set_option maxRecDepth 16384

noncomputable section

namespace Cert.KernelIdeal.Embed

open Cert.KernelIdeal Cert.KernelIdeal.Gen Idealize.ShloMosaic Idealize.ShloMosaic.TcCoe Idealize.SL.Sem
open Idealize.ShloMosaic.ValueIdx Cert.Layers
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The index maps over the grid: the three row-tiled windows sit at block row t, column block 0; the weights and the
    bias at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row p of point t's tile is row 3000 t + p of the arrays. -/
def row (t : Fin cfg0.N) (p : Fin 3000) : Fin 300000 :=
  ⟨t.val * 3000 + p.val, by have hN : cfg0.N = 100 := N_0; have ht := t.isLt; have hp := p.isLt; omega⟩

theorem in0_apply (c : Dev nD) (t : Fin cfg0.N) (p : Fin 3000) (k : Fin 256) :
    iblk0 V c 0 t (ix2 p k) = V c main_v14 (ix2 (row t p) k) := by
  obtain ⟨e0, e1, -⟩ := idx_facts t
  show V c main_v14 (((cfg0.win 0).blk t).view.emb (ix2 p k)) = _
  refine congrArg _ ?_
  funext a; apply Fin.ext
  match a with
  | ⟨0, _⟩ => show win0_0.index t (0 : Fin 2) * 3000 + 1 * p.val = t.val * 3000 + p.val; omega
  | ⟨1, _⟩ => show win0_0.index t (1 : Fin 2) * 256 + 1 * k.val = k.val; omega

theorem in1_apply (c : Dev nD) (t : Fin cfg0.N) (k : Fin 256) (q : Fin 256) :
    iblk0 V c 1 t (ix2 k q) = V c main_arg3 (ix2 k q) := by
  obtain ⟨-, -, e0, e1, -⟩ := idx_facts t
  show V c main_arg3 (((cfg0.win 1).blk t).view.emb (ix2 k q)) = _
  refine congrArg _ ?_
  funext a; apply Fin.ext
  match a with
  | ⟨0, _⟩ => show win0_1.index t (0 : Fin 2) * 256 + 1 * k.val = k.val; omega
  | ⟨1, _⟩ => show win0_1.index t (1 : Fin 2) * 256 + 1 * q.val = q.val; omega

theorem in2_apply (c : Dev nD) (t : Fin cfg0.N) (p : Fin 3000) (k : Fin 64) :
    iblk0 V c 2 t (ix2 p k) = V c main_arg1 (ix2 (row t p) k) := by
  obtain ⟨-, -, -, -, e0, e1, -⟩ := idx_facts t
  show V c main_arg1 (((cfg0.win 2).blk t).view.emb (ix2 p k)) = _
  refine congrArg _ ?_
  funext a; apply Fin.ext
  match a with
  | ⟨0, _⟩ => show win0_2.index t (0 : Fin 2) * 3000 + 1 * p.val = t.val * 3000 + p.val; omega
  | ⟨1, _⟩ => show win0_2.index t (1 : Fin 2) * 64 + 1 * k.val = k.val; omega

theorem in3_apply (c : Dev nD) (t : Fin cfg0.N) (k : Fin 64) (q : Fin 256) :
    iblk0 V c 3 t (ix2 k q) = V c main_arg4 (ix2 k q) := by
  obtain ⟨-, -, -, -, -, -, e0, e1, -⟩ := idx_facts t
  show V c main_arg4 (((cfg0.win 3).blk t).view.emb (ix2 k q)) = _
  refine congrArg _ ?_
  funext a; apply Fin.ext
  match a with
  | ⟨0, _⟩ => show win0_3.index t (0 : Fin 2) * 64 + 1 * k.val = k.val; omega
  | ⟨1, _⟩ => show win0_3.index t (1 : Fin 2) * 256 + 1 * q.val = q.val; omega

theorem in4_apply (c : Dev nD) (t : Fin cfg0.N) (z : Fin 1) (q : Fin 256) :
    iblk0 V c 4 t (ix2 z q) = V c main_v15 (ix2 z q) := by
  obtain ⟨-, -, -, -, -, -, -, -, e0, e1, -⟩ := idx_facts t
  show V c main_v15 (((cfg0.win 4).blk t).view.emb (ix2 z q)) = _
  refine congrArg _ ?_
  funext a; apply Fin.ext
  match a with
  | ⟨0, _⟩ => show win0_4.index t (0 : Fin 2) * 1 + 1 * z.val = z.val; omega
  | ⟨1, _⟩ => show win0_4.index t (1 : Fin 2) * 256 + 1 * q.val = q.val; omega

theorem out_emb (t : Fin cfg0.N) (p : Fin 3000) (q : Fin 256) :
    ((cfg0.win 5).blk t).view.emb (ix2 p q) = ix2 (row t p) q := by
  obtain ⟨-, -, -, -, -, -, -, -, -, -, e0, e1⟩ := idx_facts t
  funext a; apply Fin.ext
  match a with
  | ⟨0, _⟩ => show win0_5.index t (0 : Fin 2) * 3000 + 1 * p.val = t.val * 3000 + p.val; omega
  | ⟨1, _⟩ => show win0_5.index t (1 : Fin 2) * 256 + 1 * q.val = q.val; omega

/-- The layer of the arrays the stage finds. -/
abbrev G (c : Dev nD) : S300000x256.Idx → EReal :=
  affine2 (A := 300000) (K := 256) (L := 64) (B := 256) (V c main_v14) (V c main_arg3) (V c main_arg1) (V c main_arg4) (V c main_v15)

/-- What point t writes back is block t of the layer of the arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero origin2]
  simp only [View.ld_unit_zero (S := S3000x256) origin2, View.ld_unit_zero (S := S256x256) origin2,
    View.ld_unit_zero (S := S3000x64) origin2, View.ld_unit_zero (S := S64x256) origin2, View.ld_unit_zero (S := S1x256) origin2]
  funext j
  obtain ⟨p, q, rfl⟩ : ∃ (p : Fin 3000) (q : Fin 256), j = ix2 p q := ⟨j 0, j 1, eq_ix2 j⟩
  show k0_pay1 (iblk0 V c 0 t) (iblk0 V c 1 t) (iblk0 V c 2 t) (iblk0 V c 3 t) (iblk0 V c 4 t) (ix2 p q)
      = G V c (((cfg0.win 5).blk t).view.emb (ix2 p q))
  rw [out_emb t p q]
  refine (Tiles.embed_apply _ _ _ _ _ p q).trans ?_
  show affine2At _ _ _ _ _ p q = affine2At _ _ _ _ _ (row t p) q
  unfold affine2At
  simp only [in0_apply V c t, in1_apply V c t, in2_apply V c t, in3_apply V c t, in4_apply V c t]

/-- An index of the result is in point t's block iff each coordinate is in the block's range. -/
theorem mem_blk (t : Fin cfg0.N) (i : S300000x256.Idx) :
    i ∈ ((cfg0.win 5).blk t).view.set ↔ ∀ a : Fin 2, win0_5.index t a * S3000x256.size a ≤ (i a).val ∧ (i a).val < win0_5.index t a * S3000x256.size a + S3000x256.size a := by
  show i ∈ ((View.whole main_v16).slice (win0_5.rect t)).set ↔ _
  rw [View.set_slice_whole, Rect.mem_set_unit]
  exact Iff.rfl

/-- Every row of the result is in the block of the point its row number divided by 3000 names. -/
theorem cover (i : S300000x256.Idx) :
    ∃ t : Fin cfg0.N, (cfg0.win 5).flush t = true ∧ i ∈ ((cfg0.win 5).blk t).view.set := by
  have hi0 : (i 0).val < 300000 := (i 0).isLt
  have hi1 : (i 1).val < 256 := (i 1).isLt
  have hN : cfg0.N = 100 := N_0
  let t : Fin cfg0.N := ⟨(i 0).val / 3000, by omega⟩
  have ht : t.val = (i 0).val / 3000 := rfl
  obtain ⟨-, -, -, -, -, -, -, -, -, -, e0, e1⟩ := idx_facts t
  refine ⟨t, flush0_5 t, ?_⟩
  rw [mem_blk]
  intro a
  match a with
  | ⟨0, _⟩ => show win0_5.index t (0 : Fin 2) * 3000 ≤ (i 0).val ∧ (i 0).val < win0_5.index t (0 : Fin 2) * 3000 + 3000; omega
  | ⟨1, _⟩ => show win0_5.index t (1 : Fin 2) * 256 ≤ (i 1).val ∧ (i 1).val < win0_5.index t (1 : Fin 2) * 256 + 256; omega

/-- The result array after the stage: the layer of the arrays the stage found. -/
theorem final (c : Dev nD) : (dat0 V c).arrAt 5 cfg0.N = G V c :=
  (dat0 V c).arrAt_eq_of_cover 5 (G V c) (fun t _ => flushed_eq V c t) cover

end Cert.KernelIdeal.Embed

end
-- ==== Proof.Update1.lean ====
/-
  The first message update as a whole array.

  The update is computed 3000 edge rows at a time over 100 grid points: point t reads rows 3000 t … 3000 t + 2999 of
  the incoming sums and of the edge embedding, the weight matrix whole, and writes the same rows of the new messages.
  What point t writes back is block t of the layer's whole-array function of the arrays the stage finds, and the 100
  blocks tile the 300000 rows.
-/
import proofs.«103938_j57492432224748_1_alg».proof.Proof.Gen.KernelIdeal.Frame
import proofs.«103938_j57492432224748_1_alg».proof.Proof.Tiles
import Idealize.ShloMosaic.Lib.Pipeline.Value

set_option maxRecDepth 16384

noncomputable section

namespace Cert.KernelIdeal.Update1

open Cert.KernelIdeal Cert.KernelIdeal.Gen Idealize.ShloMosaic Idealize.ShloMosaic.TcCoe Idealize.SL.Sem
open Idealize.ShloMosaic.ValueIdx Cert.Layers
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The index maps over the grid: the three row-tiled windows sit at block row t, column block 0; the weights at
    block (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row p of point t's tile is row 3000 t + p of the arrays. -/
def row (t : Fin cfg1.N) (p : Fin 3000) : Fin 300000 :=
  ⟨t.val * 3000 + p.val, by have hN : cfg1.N = 100 := N_1; have ht := t.isLt; have hp := p.isLt; omega⟩

theorem in0_apply (c : Dev nD) (t : Fin cfg1.N) (p : Fin 3000) (k : Fin 256) :
    iblk1 V c 0 t (ix2 p k) = V c main_v39 (ix2 (row t p) k) := by
  obtain ⟨e0, e1, -⟩ := idx_facts t
  show V c main_v39 (((cfg1.win 0).blk t).view.emb (ix2 p k)) = _
  refine congrArg _ ?_
  funext a; apply Fin.ext
  match a with
  | ⟨0, _⟩ => show win1_0.index t (0 : Fin 2) * 3000 + 1 * p.val = t.val * 3000 + p.val; omega
  | ⟨1, _⟩ => show win1_0.index t (1 : Fin 2) * 256 + 1 * k.val = k.val; omega

theorem in1_apply (c : Dev nD) (t : Fin cfg1.N) (k : Fin 256) (q : Fin 256) :
    iblk1 V c 1 t (ix2 k q) = V c main_arg5 (ix2 k q) := by
  obtain ⟨-, -, e0, e1, -⟩ := idx_facts t
  show V c main_arg5 (((cfg1.win 1).blk t).view.emb (ix2 k q)) = _
  refine congrArg _ ?_
  funext a; apply Fin.ext
  match a with
  | ⟨0, _⟩ => show win1_1.index t (0 : Fin 2) * 256 + 1 * k.val = k.val; omega
  | ⟨1, _⟩ => show win1_1.index t (1 : Fin 2) * 256 + 1 * q.val = q.val; omega

theorem in2_apply (c : Dev nD) (t : Fin cfg1.N) (p : Fin 3000) (q : Fin 256) :
    iblk1 V c 2 t (ix2 p q) = V c main_v16 (ix2 (row t p) q) := by
  obtain ⟨-, -, -, -, e0, e1, -⟩ := idx_facts t
  show V c main_v16 (((cfg1.win 2).blk t).view.emb (ix2 p q)) = _
  refine congrArg _ ?_
  funext a; apply Fin.ext
  match a with
  | ⟨0, _⟩ => show win1_2.index t (0 : Fin 2) * 3000 + 1 * p.val = t.val * 3000 + p.val; omega
  | ⟨1, _⟩ => show win1_2.index t (1 : Fin 2) * 256 + 1 * q.val = q.val; omega

theorem out_emb (t : Fin cfg1.N) (p : Fin 3000) (q : Fin 256) :
    ((cfg1.win 3).blk t).view.emb (ix2 p q) = ix2 (row t p) q := by
  obtain ⟨-, -, -, -, -, -, e0, e1⟩ := idx_facts t
  funext a; apply Fin.ext
  match a with
  | ⟨0, _⟩ => show win1_3.index t (0 : Fin 2) * 3000 + 1 * p.val = t.val * 3000 + p.val; omega
  | ⟨1, _⟩ => show win1_3.index t (1 : Fin 2) * 256 + 1 * q.val = q.val; omega

/-- The layer of the arrays the stage finds. -/
abbrev G (c : Dev nD) : S300000x256.Idx → EReal :=
  dotAddRelu (A := 300000) (K := 256) (B := 256) (V c main_v39) (V c main_arg5) (V c main_v16)

/-- What point t writes back is block t of the layer of the arrays. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero origin2]
  simp only [View.ld_unit_zero (S := S3000x256) origin2, View.ld_unit_zero (S := S256x256) origin2]
  funext j
  obtain ⟨p, q, rfl⟩ : ∃ (p : Fin 3000) (q : Fin 256), j = ix2 p q := ⟨j 0, j 1, eq_ix2 j⟩
  show k1_pay1 (iblk1 V c 0 t) (iblk1 V c 1 t) (iblk1 V c 2 t) (ix2 p q)
      = G V c (((cfg1.win 3).blk t).view.emb (ix2 p q))
  rw [out_emb t p q]
  refine (Tiles.update1_apply _ _ _ p q).trans ?_
  show dotAddReluAt _ _ _ p q = dotAddReluAt _ _ _ (row t p) q
  unfold dotAddReluAt
  simp only [in0_apply V c t, in1_apply V c t, in2_apply V c t]

/-- An index of the result is in point t's block iff each coordinate is in the block's range. -/
theorem mem_blk (t : Fin cfg1.N) (i : S300000x256.Idx) :
    i ∈ ((cfg1.win 3).blk t).view.set ↔ ∀ a : Fin 2, win1_3.index t a * S3000x256.size a ≤ (i a).val ∧ (i a).val < win1_3.index t a * S3000x256.size a + S3000x256.size a := by
  show i ∈ ((View.whole main_v40).slice (win1_3.rect t)).set ↔ _
  rw [View.set_slice_whole, Rect.mem_set_unit]
  exact Iff.rfl

/-- Every row of the result is in the block of the point its row number divided by 3000 names. -/
theorem cover (i : S300000x256.Idx) :
    ∃ t : Fin cfg1.N, (cfg1.win 3).flush t = true ∧ i ∈ ((cfg1.win 3).blk t).view.set := by
  have hi0 : (i 0).val < 300000 := (i 0).isLt
  have hi1 : (i 1).val < 256 := (i 1).isLt
  have hN : cfg1.N = 100 := N_1
  let t : Fin cfg1.N := ⟨(i 0).val / 3000, by omega⟩
  have ht : t.val = (i 0).val / 3000 := rfl
  obtain ⟨-, -, -, -, -, -, e0, e1⟩ := idx_facts t
  refine ⟨t, flush1_3 t, ?_⟩
  rw [mem_blk]
  intro a
  match a with
  | ⟨0, _⟩ => show win1_3.index t (0 : Fin 2) * 3000 ≤ (i 0).val ∧ (i 0).val < win1_3.index t (0 : Fin 2) * 3000 + 3000; omega
  | ⟨1, _⟩ => show win1_3.index t (1 : Fin 2) * 256 ≤ (i 1).val ∧ (i 1).val < win1_3.index t (1 : Fin 2) * 256 + 256; omega

/-- The new messages after the stage: the layer of the arrays the stage found. -/
theorem final (c : Dev nD) : (dat1 V c).arrAt 3 cfg1.N = G V c :=
  (dat1 V c).arrAt_eq_of_cover 3 (G V c) (fun t _ => flushed_eq V c t) cover

end Cert.KernelIdeal.Update1

end
-- ==== Proof.Network.lean ====
/-
  The message-passing network as one function of its thirteen arguments.

  A graph has 100000 nodes and 300000 directed edges, edge 2i and edge 2i + 1 being each other's reverse; edge e runs
  from node src e to node dst e. Every edge carries a message of 256 numbers. The network is

    alpha  = the tree messages scattered onto their target edges, zero elsewhere;
    base   = embed (node features gathered at src, edge features);
    msg_0  = 0,   msg_(n+1) = update (incoming msg_n, base)   three times, where
    incoming msg = (the messages summed at each node by dst) gathered at src, minus msg at the reverse edge, plus alpha;
    result = readout (node features, msg_3 summed at each node by dst).

  The scatters and gathers are host operations, kept here exactly as a host program spells them — an index array is
  first wrapped (a negative index has the extent added) and made a column —, over four records of dimension numbers
  that each program supplies: nothing below depends on what a scatter or a gather does with an index out of range or
  met twice, only on both programs applying the same operation to the same operands. The three dense layers are the
  entry-by-entry functions of the layers module.
-/
import proofs.«103938_j57492432224748_1_alg».proof.Proof.Layers

noncomputable section

namespace Cert.Network

open Idealize.ShloMosaic Cert.Layers

/-- edges × message width, nodes × width, edges × edge-feature width, tree messages × width -/
abbrev SE : Shape := ⟨2, ![300000, 256]⟩
abbrev SN : Shape := ⟨2, ![100000, 256]⟩
abbrev SF : Shape := ⟨2, ![300000, 64]⟩
abbrev ST : Shape := ⟨2, ![10000, 256]⟩
/-- the weight matrices, a bias vector, a bias row -/
abbrev SW : Shape := ⟨2, ![256, 256]⟩
abbrev SV : Shape := ⟨2, ![64, 256]⟩
abbrev SB : Shape := ⟨1, ![256]⟩
abbrev SR : Shape := ⟨2, ![1, 256]⟩
/-- an index per edge, the same as a column; an index per tree message, the same as a column; a scalar -/
abbrev SI : Shape := ⟨1, ![300000]⟩
abbrev SIc : Shape := ⟨2, ![300000, 1]⟩
abbrev SJ : Shape := ⟨1, ![10000]⟩
abbrev SJc : Shape := ⟨2, ![10000, 1]⟩
abbrev S0 : Shape := ⟨0, ![]⟩

/-- A float array and an index array of a shape, on the extended reals. -/
abbrev Fl (s : Shape) : Type := FVec Ideal s .f32
abbrev In (s : Shape) : Type := IVec s 32

theorem b0E : S0.BroadcastsInDim SE (![] : Fin 0 → Fin SE.rank) := by decide
theorem b0N : S0.BroadcastsInDim SN (![] : Fin 0 → Fin SN.rank) := by decide
theorem b0I : S0.BroadcastsInDim SI (![] : Fin 0 → Fin SI.rank) := by decide
theorem b0J : S0.BroadcastsInDim SJ (![] : Fin 0 → Fin SJ.rank) := by decide
theorem bIc : SI.BroadcastsInDim SIc (![0] : Fin 1 → Fin SIc.rank) := by decide
theorem bJc : SJ.BroadcastsInDim SJc (![0] : Fin 1 → Fin SJc.rank) := by decide
theorem cBR : SB.ShapeCasts SR := by decide

/-- The dimension numbers of the network's four irregular operations: the gather of node rows at edge indices, the
    gather of edge rows at edge indices, the scatter of edge rows onto node rows, the scatter of tree messages onto
    edge rows. -/
structure Glue where
  gN : GatherDims SN SIc SE
  gE : GatherDims SE SIc SE
  sN : ScatterDims SN SIc SE
  sA : ScatterDims SE SJc ST

variable (R : Glue)

def zerosE : Fl SE := broadcastInDim SE ![] b0E (constant (F := Ideal) S0 .f32 0x00000000#32)
def zerosN : Fl SN := broadcastInDim SN ![] b0N (constant (F := Ideal) S0 .f32 0x00000000#32)

/-- An edge-index array wrapped: a negative index has the extent n added. -/
def wrapI (n : BitVec 32) (v : In SI) : In SI :=
  select (cmpi .slt v (broadcastInDim SI ![] b0I (constantI S0 32 0#32))) (addi v (broadcastInDim SI ![] b0I (constantI S0 32 n))) v
def wrapJ (n : BitVec 32) (v : In SJ) : In SJ :=
  select (cmpi .slt v (broadcastInDim SJ ![] b0J (constantI S0 32 0#32))) (addi v (broadcastInDim SJ ![] b0J (constantI S0 32 n))) v
def colI (v : In SI) : In SIc := broadcastInDim SIc ![0] bIc v
def colJ (v : In SJ) : In SJc := broadcastInDim SJc ![0] bJc v

/-- The reverse edge of edge e: e with its lowest bit flipped. -/
def rev : In SI := xori (iotaInDim SI 32 0) (broadcastInDim SI ![] b0I (constantI S0 32 1#32))

/-- The tree messages set at their target edges, zero elsewhere. -/
def alpha (tgt : In SJ) (tm : Fl ST) : Fl SE :=
  Host.scatter R.sA (fun _ b => b) zerosE (colJ (wrapJ 300000#32 tgt)) tm
/-- Node rows gathered at each edge's source. -/
def atSrc (x : Fl SN) (src : In SI) : Fl SE := Host.gather R.gN x (colI (wrapI 100000#32 src))
/-- Edge rows gathered at each edge's reverse. -/
def atRev (x : Fl SE) : Fl SE := Host.gather R.gE x (colI (wrapI 300000#32 rev))
/-- Edge rows summed at each edge's destination. -/
def nodeSum (msg : Fl SE) (dst : In SI) : Fl SN := Host.scatterAdd R.sN zerosN (colI dst) msg
/-- What flows into an edge: the messages arriving at its source, but the one from its own reverse, plus alpha. -/
def incoming (msg : Fl SE) (src dst : In SI) (al : Fl SE) : Fl SE :=
  addf (subf (atSrc R (nodeSum R msg dst) src) (atRev R msg)) al

/-- A bias vector as a row. -/
def rowOf (b : Fl SB) : Fl SR := shapeCast SR b cBR

def embed (g : Fl SE) (w1 : Fl SW) (e : Fl SF) (w2 : Fl SV) (b1 : Fl SB) : Fl SE :=
  affine2 (A := 300000) (K := 256) (L := 64) (B := 256) g w1 e w2 (rowOf b1)
def update (x : Fl SE) (w3 : Fl SW) (base : Fl SE) : Fl SE :=
  dotAddRelu (A := 300000) (K := 256) (B := 256) x w3 base
def readout (a : Fl SN) (w4 : Fl SW) (n : Fl SN) (w5 : Fl SW) (b2 : Fl SB) : Fl SN :=
  affine2Relu (A := 100000) (K := 256) (L := 256) (B := 256) a w4 n w5 (rowOf b2)

/-- One round of message passing. -/
def step (src dst : In SI) (al base : Fl SE) (w3 : Fl SW) (msg : Fl SE) : Fl SE :=
  update (incoming R msg src dst al) w3 base

/-- The network. -/
def net (a0 : Fl SN) (a1 : Fl SF) (a2 : Fl ST) (a3 : Fl SW) (a4 : Fl SV) (a5 : Fl SW) (a6 : Fl SB) (a7 a8 : Fl SW) (a9 : Fl SB)
    (a10 a11 : In SI) (a12 : In SJ) : Fl SN :=
  readout a0 a7
    (nodeSum R
      (step R a10 a11 (alpha R a12 a2) (embed (atSrc R a0 a10) a3 a1 a4 a6) a5
        (step R a10 a11 (alpha R a12 a2) (embed (atSrc R a0 a10) a3 a1 a4 a6) a5
          (step R a10 a11 (alpha R a12 a2) (embed (atSrc R a0 a10) a3 a1 a4 a6) a5 zerosE))) a11)
    a8 a9

end Cert.Network

end
-- ==== Proof.ChainA.lean ====
/-
  The kernel program's buffers, boundary by boundary: from the launch to the second update's operands.

  The program is a fold of ten segments: a stretch of host operations, a launched stage, a stretch, a stage, … At each
  boundary the buffers later segments read are named: an argument array still holds its launch contents (no host
  operation and no stage writes one); alpha, the reverse-edge indices and the embedding, once computed, stay; and each
  stretch's last result is the next stage's operand, a term of the network's specification over the argument arrays.
  A stage's result array is its layer of the arrays it found (the stage modules), which by the facts of the boundary
  before are specification terms again.
-/
import proofs.«103938_j57492432224748_1_alg».proof.Proof.Gen.KernelIdeal.Frame
import proofs.«103938_j57492432224748_1_alg».proof.Proof.Embed
import proofs.«103938_j57492432224748_1_alg».proof.Proof.Update1
import proofs.«103938_j57492432224748_1_alg».proof.Proof.Network

set_option maxRecDepth 16384

noncomputable section

namespace Cert.KernelIdeal.Chain

open Cert.KernelIdeal Cert.KernelIdeal.Gen Idealize.ShloMosaic Idealize.ShloMosaic.TcCoe Idealize.SL.Sem
open Cert.Layers Cert.Network
open Idealize.ShloMosaic.Pipeline (Dat)

variable (m : (ℓ : Loc nD τ sig) → Buf (Elt Ideal) ℓ) (ρ : Dev nD → PrngReg) (c : Dev nD)

/-- The kernel program's four records of dimension numbers. -/
def glue : Glue where
  gN := gather_S100000x256_S300000x1_S300000x256_1_0_n_n_0_1_1256
  gE := gather_S300000x256_S300000x1_S300000x256_1_0_n_n_0_1_1256
  sN := scatter_S100000x256_S300000x1_S300000x256_1_0_0_1
  sA := scatter_S300000x256_S10000x1_S10000x256_1_0_0_1

/-- An argument array's launch contents on core c. -/
abbrev argAt (b : Ref sig .tc) : Buf (Elt Ideal) ((c : Thread nD τ).loc b) := m ((c : Thread nD τ).loc b)

/-- The specification's intermediate arrays, of the launch contents. -/
def al : Fl SE := alpha glue (argAt m c main_arg12) (argAt m c main_arg2)
def base : Fl SE := embed (atSrc glue (argAt m c main_arg0) (argAt m c main_arg10)) (argAt m c main_arg3) (argAt m c main_arg1) (argAt m c main_arg4) (argAt m c main_arg6)
abbrev msg0 : Fl SE := zerosE
def msg1 : Fl SE := step glue (argAt m c main_arg10) (argAt m c main_arg11) (al m c) (base m c) (argAt m c main_arg5) msg0
def msg2 : Fl SE := step glue (argAt m c main_arg10) (argAt m c main_arg11) (al m c) (base m c) (argAt m c main_arg5) (msg1 m c)
def msg3 : Fl SE := step glue (argAt m c main_arg10) (argAt m c main_arg11) (al m c) (base m c) (argAt m c main_arg5) (msg2 m c)

/-- A buffer no operation of a stretch writes holds after the stretch what it held before. -/
macro "kept" : tactic => `(tactic| exact StableHlo.after_of_forall_not_mem _ _ (List.forall_iff_forall_mem.mp (by
  simp only [hostOps0, hostOps1, hostOps2, hostOps3, hostOps4, List.Forall, StableHlo.nullary_writes, StableHlo.unary_writes,
    StableHlo.binary_writes, StableHlo.ternary_writes, StableHlo.reshape_writes, Finset.mem_singleton]
  repeat' apply And.intro
  all_goals exact StableHlo.devRef_ne_of_ne (by decide))))

/-! ## After the first stretch of host operations (the embedding's operands) -/

theorem b1_arg0 : W1 m ρ c (Proc.devRef .tc main_arg0) = argAt m c main_arg0 :=
  (by kept : W1 m ρ c (Proc.devRef .tc main_arg0) = W0 m ρ c (Proc.devRef .tc main_arg0)).trans rfl

theorem b1_arg1 : W1 m ρ c (Proc.devRef .tc main_arg1) = argAt m c main_arg1 :=
  (by kept : W1 m ρ c (Proc.devRef .tc main_arg1) = W0 m ρ c (Proc.devRef .tc main_arg1)).trans rfl

theorem b1_arg3 : W1 m ρ c (Proc.devRef .tc main_arg3) = argAt m c main_arg3 :=
  (by kept : W1 m ρ c (Proc.devRef .tc main_arg3) = W0 m ρ c (Proc.devRef .tc main_arg3)).trans rfl

theorem b1_arg4 : W1 m ρ c (Proc.devRef .tc main_arg4) = argAt m c main_arg4 :=
  (by kept : W1 m ρ c (Proc.devRef .tc main_arg4) = W0 m ρ c (Proc.devRef .tc main_arg4)).trans rfl

theorem b1_arg5 : W1 m ρ c (Proc.devRef .tc main_arg5) = argAt m c main_arg5 :=
  (by kept : W1 m ρ c (Proc.devRef .tc main_arg5) = W0 m ρ c (Proc.devRef .tc main_arg5)).trans rfl

theorem b1_arg7 : W1 m ρ c (Proc.devRef .tc main_arg7) = argAt m c main_arg7 :=
  (by kept : W1 m ρ c (Proc.devRef .tc main_arg7) = W0 m ρ c (Proc.devRef .tc main_arg7)).trans rfl

theorem b1_arg8 : W1 m ρ c (Proc.devRef .tc main_arg8) = argAt m c main_arg8 :=
  (by kept : W1 m ρ c (Proc.devRef .tc main_arg8) = W0 m ρ c (Proc.devRef .tc main_arg8)).trans rfl

theorem b1_arg9 : W1 m ρ c (Proc.devRef .tc main_arg9) = argAt m c main_arg9 :=
  (by kept : W1 m ρ c (Proc.devRef .tc main_arg9) = W0 m ρ c (Proc.devRef .tc main_arg9)).trans rfl

theorem b1_arg10 : W1 m ρ c (Proc.devRef .tc main_arg10) = argAt m c main_arg10 :=
  (by kept : W1 m ρ c (Proc.devRef .tc main_arg10) = W0 m ρ c (Proc.devRef .tc main_arg10)).trans rfl

theorem b1_arg11 : W1 m ρ c (Proc.devRef .tc main_arg11) = argAt m c main_arg11 :=
  (by kept : W1 m ρ c (Proc.devRef .tc main_arg11) = W0 m ρ c (Proc.devRef .tc main_arg11)).trans rfl

set_option maxHeartbeats 1600000 in
theorem b1_v7 : W1 m ρ c (Proc.devRef .tc main_v7) = al m c := by
  show StableHlo.after hostOps0 (W0 m ρ c) (Proc.devRef .tc main_v7) = _
  after_results_simp
  rfl

set_option maxHeartbeats 1600000 in
theorem b1_v14 : W1 m ρ c (Proc.devRef .tc main_v14) = atSrc glue (argAt m c main_arg0) (argAt m c main_arg10) := by
  show StableHlo.after hostOps0 (W0 m ρ c) (Proc.devRef .tc main_v14) = _
  after_results_simp
  rfl

set_option maxHeartbeats 1600000 in
theorem b1_v15 : W1 m ρ c (Proc.devRef .tc main_v15) = rowOf (argAt m c main_arg6) := by
  show StableHlo.after hostOps0 (W0 m ρ c) (Proc.devRef .tc main_v15) = _
  after_results_simp
  rfl

/-! ## After the embedding -/

theorem b2_v16 : W2 m ρ c (Proc.devRef .tc main_v16) = base m c := by
  refine (W2_arr m ρ c 5).trans ((Embed.final (V1 m ρ) c).trans ?_)
  show affine2 (A := 300000) (K := 256) (L := 64) (B := 256) (W1 m ρ c (Proc.devRef .tc main_v14)) (W1 m ρ c (Proc.devRef .tc main_arg3)) (W1 m ρ c (Proc.devRef .tc main_arg1)) (W1 m ρ c (Proc.devRef .tc main_arg4)) (W1 m ρ c (Proc.devRef .tc main_v15)) = _
  rw [b1_v14 m ρ c, b1_arg3 m ρ c, b1_arg1 m ρ c, b1_arg4 m ρ c, b1_v15 m ρ c]
  rfl

theorem b2_arg0 : W2 m ρ c (Proc.devRef .tc main_arg0) = argAt m c main_arg0 :=
  (W2_of_ne m ρ c main_arg0 (by decide)).trans (b1_arg0 m ρ c)

theorem b2_arg5 : W2 m ρ c (Proc.devRef .tc main_arg5) = argAt m c main_arg5 :=
  (W2_of_ne m ρ c main_arg5 (by decide)).trans (b1_arg5 m ρ c)

theorem b2_arg7 : W2 m ρ c (Proc.devRef .tc main_arg7) = argAt m c main_arg7 :=
  (W2_of_ne m ρ c main_arg7 (by decide)).trans (b1_arg7 m ρ c)

theorem b2_arg8 : W2 m ρ c (Proc.devRef .tc main_arg8) = argAt m c main_arg8 :=
  (W2_of_ne m ρ c main_arg8 (by decide)).trans (b1_arg8 m ρ c)

theorem b2_arg9 : W2 m ρ c (Proc.devRef .tc main_arg9) = argAt m c main_arg9 :=
  (W2_of_ne m ρ c main_arg9 (by decide)).trans (b1_arg9 m ρ c)

theorem b2_arg10 : W2 m ρ c (Proc.devRef .tc main_arg10) = argAt m c main_arg10 :=
  (W2_of_ne m ρ c main_arg10 (by decide)).trans (b1_arg10 m ρ c)

theorem b2_arg11 : W2 m ρ c (Proc.devRef .tc main_arg11) = argAt m c main_arg11 :=
  (W2_of_ne m ρ c main_arg11 (by decide)).trans (b1_arg11 m ρ c)

theorem b2_v7 : W2 m ρ c (Proc.devRef .tc main_v7) = al m c :=
  (W2_of_ne m ρ c main_v7 (by decide)).trans (b1_v7 m ρ c)

/-! ## After the second stretch (the first update's operands) -/

theorem b3_arg0 : W3 m ρ c (Proc.devRef .tc main_arg0) = argAt m c main_arg0 :=
  (by kept : W3 m ρ c (Proc.devRef .tc main_arg0) = W2 m ρ c (Proc.devRef .tc main_arg0)).trans (b2_arg0 m ρ c)

theorem b3_arg5 : W3 m ρ c (Proc.devRef .tc main_arg5) = argAt m c main_arg5 :=
  (by kept : W3 m ρ c (Proc.devRef .tc main_arg5) = W2 m ρ c (Proc.devRef .tc main_arg5)).trans (b2_arg5 m ρ c)

theorem b3_arg7 : W3 m ρ c (Proc.devRef .tc main_arg7) = argAt m c main_arg7 :=
  (by kept : W3 m ρ c (Proc.devRef .tc main_arg7) = W2 m ρ c (Proc.devRef .tc main_arg7)).trans (b2_arg7 m ρ c)

theorem b3_arg8 : W3 m ρ c (Proc.devRef .tc main_arg8) = argAt m c main_arg8 :=
  (by kept : W3 m ρ c (Proc.devRef .tc main_arg8) = W2 m ρ c (Proc.devRef .tc main_arg8)).trans (b2_arg8 m ρ c)

theorem b3_arg9 : W3 m ρ c (Proc.devRef .tc main_arg9) = argAt m c main_arg9 :=
  (by kept : W3 m ρ c (Proc.devRef .tc main_arg9) = W2 m ρ c (Proc.devRef .tc main_arg9)).trans (b2_arg9 m ρ c)

theorem b3_arg10 : W3 m ρ c (Proc.devRef .tc main_arg10) = argAt m c main_arg10 :=
  (by kept : W3 m ρ c (Proc.devRef .tc main_arg10) = W2 m ρ c (Proc.devRef .tc main_arg10)).trans (b2_arg10 m ρ c)

theorem b3_arg11 : W3 m ρ c (Proc.devRef .tc main_arg11) = argAt m c main_arg11 :=
  (by kept : W3 m ρ c (Proc.devRef .tc main_arg11) = W2 m ρ c (Proc.devRef .tc main_arg11)).trans (b2_arg11 m ρ c)

theorem b3_v7 : W3 m ρ c (Proc.devRef .tc main_v7) = al m c :=
  (by kept : W3 m ρ c (Proc.devRef .tc main_v7) = W2 m ρ c (Proc.devRef .tc main_v7)).trans (b2_v7 m ρ c)

theorem b3_v16 : W3 m ρ c (Proc.devRef .tc main_v16) = base m c :=
  (by kept : W3 m ρ c (Proc.devRef .tc main_v16) = W2 m ρ c (Proc.devRef .tc main_v16)).trans (b2_v16 m ρ c)

set_option maxHeartbeats 1600000 in
theorem b3_v19 : W3 m ρ c (Proc.devRef .tc main_v19) = rev := by
  show StableHlo.after hostOps1 (W2 m ρ c) (Proc.devRef .tc main_v19) = _
  after_results_simp
  rfl

set_option maxHeartbeats 1600000 in
theorem b3_v39 : W3 m ρ c (Proc.devRef .tc main_v39) = incoming glue (msg0) (argAt m c main_arg10) (argAt m c main_arg11) (al m c) := by
  show StableHlo.after hostOps1 (W2 m ρ c) (Proc.devRef .tc main_v39) = _
  after_results_simp
  rw [b2_arg10 m ρ c, b2_arg11 m ρ c, b2_v7 m ρ c]
  rfl

/-! ## After the first update -/

theorem b4_v40 : W4 m ρ c (Proc.devRef .tc main_v40) = msg1 m c := by
  refine (W4_arr m ρ c 3).trans ((Update1.final (V3 m ρ) c).trans ?_)
  show dotAddRelu (A := 300000) (K := 256) (B := 256) (W3 m ρ c (Proc.devRef .tc main_v39)) (W3 m ρ c (Proc.devRef .tc main_arg5)) (W3 m ρ c (Proc.devRef .tc main_v16)) = _
  rw [b3_v39 m ρ c, b3_arg5 m ρ c, b3_v16 m ρ c]
  rfl

theorem b4_arg0 : W4 m ρ c (Proc.devRef .tc main_arg0) = argAt m c main_arg0 :=
  (W4_of_ne m ρ c main_arg0 (by decide)).trans (b3_arg0 m ρ c)

theorem b4_arg7 : W4 m ρ c (Proc.devRef .tc main_arg7) = argAt m c main_arg7 :=
  (W4_of_ne m ρ c main_arg7 (by decide)).trans (b3_arg7 m ρ c)

theorem b4_arg8 : W4 m ρ c (Proc.devRef .tc main_arg8) = argAt m c main_arg8 :=
  (W4_of_ne m ρ c main_arg8 (by decide)).trans (b3_arg8 m ρ c)

theorem b4_arg9 : W4 m ρ c (Proc.devRef .tc main_arg9) = argAt m c main_arg9 :=
  (W4_of_ne m ρ c main_arg9 (by decide)).trans (b3_arg9 m ρ c)

theorem b4_arg10 : W4 m ρ c (Proc.devRef .tc main_arg10) = argAt m c main_arg10 :=
  (W4_of_ne m ρ c main_arg10 (by decide)).trans (b3_arg10 m ρ c)

theorem b4_arg11 : W4 m ρ c (Proc.devRef .tc main_arg11) = argAt m c main_arg11 :=
  (W4_of_ne m ρ c main_arg11 (by decide)).trans (b3_arg11 m ρ c)

theorem b4_v7 : W4 m ρ c (Proc.devRef .tc main_v7) = al m c :=
  (W4_of_ne m ρ c main_v7 (by decide)).trans (b3_v7 m ρ c)

theorem b4_v19 : W4 m ρ c (Proc.devRef .tc main_v19) = rev :=
  (W4_of_ne m ρ c main_v19 (by decide)).trans (b3_v19 m ρ c)

theorem b4_arg5 : W4 m ρ c (Proc.devRef .tc main_arg5) = argAt m c main_arg5 :=
  (W4_arr m ρ c 1).trans (((dat1 (V3 m ρ) c).arrAt_in 1 rfl _).trans ((A_eq1 (V3 m ρ) c 1).trans (b3_arg5 m ρ c)))

theorem b4_v16 : W4 m ρ c (Proc.devRef .tc main_v16) = base m c :=
  (W4_arr m ρ c 2).trans (((dat1 (V3 m ρ) c).arrAt_in 2 rfl _).trans ((A_eq1 (V3 m ρ) c 2).trans (b3_v16 m ρ c)))

/-! ## After the third stretch (the second update's operands) -/

theorem b5_arg0 : W5 m ρ c (Proc.devRef .tc main_arg0) = argAt m c main_arg0 :=
  (by kept : W5 m ρ c (Proc.devRef .tc main_arg0) = W4 m ρ c (Proc.devRef .tc main_arg0)).trans (b4_arg0 m ρ c)

theorem b5_arg5 : W5 m ρ c (Proc.devRef .tc main_arg5) = argAt m c main_arg5 :=
  (by kept : W5 m ρ c (Proc.devRef .tc main_arg5) = W4 m ρ c (Proc.devRef .tc main_arg5)).trans (b4_arg5 m ρ c)

theorem b5_arg7 : W5 m ρ c (Proc.devRef .tc main_arg7) = argAt m c main_arg7 :=
  (by kept : W5 m ρ c (Proc.devRef .tc main_arg7) = W4 m ρ c (Proc.devRef .tc main_arg7)).trans (b4_arg7 m ρ c)

theorem b5_arg8 : W5 m ρ c (Proc.devRef .tc main_arg8) = argAt m c main_arg8 :=
  (by kept : W5 m ρ c (Proc.devRef .tc main_arg8) = W4 m ρ c (Proc.devRef .tc main_arg8)).trans (b4_arg8 m ρ c)

theorem b5_arg9 : W5 m ρ c (Proc.devRef .tc main_arg9) = argAt m c main_arg9 :=
  (by kept : W5 m ρ c (Proc.devRef .tc main_arg9) = W4 m ρ c (Proc.devRef .tc main_arg9)).trans (b4_arg9 m ρ c)

theorem b5_arg10 : W5 m ρ c (Proc.devRef .tc main_arg10) = argAt m c main_arg10 :=
  (by kept : W5 m ρ c (Proc.devRef .tc main_arg10) = W4 m ρ c (Proc.devRef .tc main_arg10)).trans (b4_arg10 m ρ c)

theorem b5_arg11 : W5 m ρ c (Proc.devRef .tc main_arg11) = argAt m c main_arg11 :=
  (by kept : W5 m ρ c (Proc.devRef .tc main_arg11) = W4 m ρ c (Proc.devRef .tc main_arg11)).trans (b4_arg11 m ρ c)

theorem b5_v7 : W5 m ρ c (Proc.devRef .tc main_v7) = al m c :=
  (by kept : W5 m ρ c (Proc.devRef .tc main_v7) = W4 m ρ c (Proc.devRef .tc main_v7)).trans (b4_v7 m ρ c)

theorem b5_v16 : W5 m ρ c (Proc.devRef .tc main_v16) = base m c :=
  (by kept : W5 m ρ c (Proc.devRef .tc main_v16) = W4 m ρ c (Proc.devRef .tc main_v16)).trans (b4_v16 m ρ c)

theorem b5_v19 : W5 m ρ c (Proc.devRef .tc main_v19) = rev :=
  (by kept : W5 m ρ c (Proc.devRef .tc main_v19) = W4 m ρ c (Proc.devRef .tc main_v19)).trans (b4_v19 m ρ c)

set_option maxHeartbeats 1600000 in
theorem b5_v59 : W5 m ρ c (Proc.devRef .tc main_v59) = incoming glue (msg1 m c) (argAt m c main_arg10) (argAt m c main_arg11) (al m c) := by
  show StableHlo.after hostOps2 (W4 m ρ c) (Proc.devRef .tc main_v59) = _
  after_results_simp
  rw [b4_v40 m ρ c, b4_arg10 m ρ c, b4_arg11 m ρ c, b4_v19 m ρ c, b4_v7 m ρ c]
  rfl

end Cert.KernelIdeal.Chain

end
-- ==== Proof.Update2.lean ====
/-
  The second message update as a whole array.

  The update is computed 3000 edge rows at a time over 100 grid points: point t reads rows 3000 t … 3000 t + 2999 of
  the incoming sums and of the edge embedding, the weight matrix whole, and writes the same rows of the new messages.
  What point t writes back is block t of the layer's whole-array function of the arrays the stage finds, and the 100
  blocks tile the 300000 rows.
-/
import proofs.«103938_j57492432224748_1_alg».proof.Proof.Gen.KernelIdeal.Frame
import proofs.«103938_j57492432224748_1_alg».proof.Proof.Tiles
import Idealize.ShloMosaic.Lib.Pipeline.Value

set_option maxRecDepth 16384

noncomputable section

namespace Cert.KernelIdeal.Update2

open Cert.KernelIdeal Cert.KernelIdeal.Gen Idealize.ShloMosaic Idealize.ShloMosaic.TcCoe Idealize.SL.Sem
open Idealize.ShloMosaic.ValueIdx Cert.Layers
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The index maps over the grid: the three row-tiled windows sit at block row t, column block 0; the weights at
    block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row p of point t's tile is row 3000 t + p of the arrays. -/
def row (t : Fin cfg2.N) (p : Fin 3000) : Fin 300000 :=
  ⟨t.val * 3000 + p.val, by have hN : cfg2.N = 100 := N_2; have ht := t.isLt; have hp := p.isLt; omega⟩

theorem in0_apply (c : Dev nD) (t : Fin cfg2.N) (p : Fin 3000) (k : Fin 256) :
    iblk2 V c 0 t (ix2 p k) = V c main_v59 (ix2 (row t p) k) := by
  obtain ⟨e0, e1, -⟩ := idx_facts t
  show V c main_v59 (((cfg2.win 0).blk t).view.emb (ix2 p k)) = _
  refine congrArg _ ?_
  funext a; apply Fin.ext
  match a with
  | ⟨0, _⟩ => show win2_0.index t (0 : Fin 2) * 3000 + 1 * p.val = t.val * 3000 + p.val; omega
  | ⟨1, _⟩ => show win2_0.index t (1 : Fin 2) * 256 + 1 * k.val = k.val; omega

theorem in1_apply (c : Dev nD) (t : Fin cfg2.N) (k : Fin 256) (q : Fin 256) :
    iblk2 V c 1 t (ix2 k q) = V c main_arg5 (ix2 k q) := by
  obtain ⟨-, -, e0, e1, -⟩ := idx_facts t
  show V c main_arg5 (((cfg2.win 1).blk t).view.emb (ix2 k q)) = _
  refine congrArg _ ?_
  funext a; apply Fin.ext
  match a with
  | ⟨0, _⟩ => show win2_1.index t (0 : Fin 2) * 256 + 1 * k.val = k.val; omega
  | ⟨1, _⟩ => show win2_1.index t (1 : Fin 2) * 256 + 1 * q.val = q.val; omega

theorem in2_apply (c : Dev nD) (t : Fin cfg2.N) (p : Fin 3000) (q : Fin 256) :
    iblk2 V c 2 t (ix2 p q) = V c main_v16 (ix2 (row t p) q) := by
  obtain ⟨-, -, -, -, e0, e1, -⟩ := idx_facts t
  show V c main_v16 (((cfg2.win 2).blk t).view.emb (ix2 p q)) = _
  refine congrArg _ ?_
  funext a; apply Fin.ext
  match a with
  | ⟨0, _⟩ => show win2_2.index t (0 : Fin 2) * 3000 + 1 * p.val = t.val * 3000 + p.val; omega
  | ⟨1, _⟩ => show win2_2.index t (1 : Fin 2) * 256 + 1 * q.val = q.val; omega

theorem out_emb (t : Fin cfg2.N) (p : Fin 3000) (q : Fin 256) :
    ((cfg2.win 3).blk t).view.emb (ix2 p q) = ix2 (row t p) q := by
  obtain ⟨-, -, -, -, -, -, e0, e1⟩ := idx_facts t
  funext a; apply Fin.ext
  match a with
  | ⟨0, _⟩ => show win2_3.index t (0 : Fin 2) * 3000 + 1 * p.val = t.val * 3000 + p.val; omega
  | ⟨1, _⟩ => show win2_3.index t (1 : Fin 2) * 256 + 1 * q.val = q.val; omega

/-- The layer of the arrays the stage finds. -/
abbrev G (c : Dev nD) : S300000x256.Idx → EReal :=
  dotAddRelu (A := 300000) (K := 256) (B := 256) (V c main_v59) (V c main_arg5) (V c main_v16)

/-- What point t writes back is block t of the layer of the arrays. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero origin2]
  simp only [View.ld_unit_zero (S := S3000x256) origin2, View.ld_unit_zero (S := S256x256) origin2]
  funext j
  obtain ⟨p, q, rfl⟩ : ∃ (p : Fin 3000) (q : Fin 256), j = ix2 p q := ⟨j 0, j 1, eq_ix2 j⟩
  show k2_pay1 (iblk2 V c 0 t) (iblk2 V c 1 t) (iblk2 V c 2 t) (ix2 p q)
      = G V c (((cfg2.win 3).blk t).view.emb (ix2 p q))
  rw [out_emb t p q]
  refine (Tiles.update2_apply _ _ _ p q).trans ?_
  show dotAddReluAt _ _ _ p q = dotAddReluAt _ _ _ (row t p) q
  unfold dotAddReluAt
  simp only [in0_apply V c t, in1_apply V c t, in2_apply V c t]

/-- An index of the result is in point t's block iff each coordinate is in the block's range. -/
theorem mem_blk (t : Fin cfg2.N) (i : S300000x256.Idx) :
    i ∈ ((cfg2.win 3).blk t).view.set ↔ ∀ a : Fin 2, win2_3.index t a * S3000x256.size a ≤ (i a).val ∧ (i a).val < win2_3.index t a * S3000x256.size a + S3000x256.size a := by
  show i ∈ ((View.whole main_v60).slice (win2_3.rect t)).set ↔ _
  rw [View.set_slice_whole, Rect.mem_set_unit]
  exact Iff.rfl

/-- Every row of the result is in the block of the point its row number divided by 3000 names. -/
theorem cover (i : S300000x256.Idx) :
    ∃ t : Fin cfg2.N, (cfg2.win 3).flush t = true ∧ i ∈ ((cfg2.win 3).blk t).view.set := by
  have hi0 : (i 0).val < 300000 := (i 0).isLt
  have hi1 : (i 1).val < 256 := (i 1).isLt
  have hN : cfg2.N = 100 := N_2
  let t : Fin cfg2.N := ⟨(i 0).val / 3000, by omega⟩
  have ht : t.val = (i 0).val / 3000 := rfl
  obtain ⟨-, -, -, -, -, -, e0, e1⟩ := idx_facts t
  refine ⟨t, flush2_3 t, ?_⟩
  rw [mem_blk]
  intro a
  match a with
  | ⟨0, _⟩ => show win2_3.index t (0 : Fin 2) * 3000 ≤ (i 0).val ∧ (i 0).val < win2_3.index t (0 : Fin 2) * 3000 + 3000; omega
  | ⟨1, _⟩ => show win2_3.index t (1 : Fin 2) * 256 ≤ (i 1).val ∧ (i 1).val < win2_3.index t (1 : Fin 2) * 256 + 256; omega

/-- The new messages after the stage: the layer of the arrays the stage found. -/
theorem final (c : Dev nD) : (dat2 V c).arrAt 3 cfg2.N = G V c :=
  (dat2 V c).arrAt_eq_of_cover 3 (G V c) (fun t _ => flushed_eq V c t) cover

end Cert.KernelIdeal.Update2

end
-- ==== Proof.Update3.lean ====
/-
  The third message update as a whole array.

  The update is computed 3000 edge rows at a time over 100 grid points: point t reads rows 3000 t … 3000 t + 2999 of
  the incoming sums and of the edge embedding, the weight matrix whole, and writes the same rows of the new messages.
  What point t writes back is block t of the layer's whole-array function of the arrays the stage finds, and the 100
  blocks tile the 300000 rows.
-/
import proofs.«103938_j57492432224748_1_alg».proof.Proof.Gen.KernelIdeal.Frame
import proofs.«103938_j57492432224748_1_alg».proof.Proof.Tiles
import Idealize.ShloMosaic.Lib.Pipeline.Value

set_option maxRecDepth 16384

noncomputable section

namespace Cert.KernelIdeal.Update3

open Cert.KernelIdeal Cert.KernelIdeal.Gen Idealize.ShloMosaic Idealize.ShloMosaic.TcCoe Idealize.SL.Sem
open Idealize.ShloMosaic.ValueIdx Cert.Layers
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The index maps over the grid: the three row-tiled windows sit at block row t, column block 0; the weights at
    block (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Row p of point t's tile is row 3000 t + p of the arrays. -/
def row (t : Fin cfg3.N) (p : Fin 3000) : Fin 300000 :=
  ⟨t.val * 3000 + p.val, by have hN : cfg3.N = 100 := N_3; have ht := t.isLt; have hp := p.isLt; omega⟩

theorem in0_apply (c : Dev nD) (t : Fin cfg3.N) (p : Fin 3000) (k : Fin 256) :
    iblk3 V c 0 t (ix2 p k) = V c main_v79 (ix2 (row t p) k) := by
  obtain ⟨e0, e1, -⟩ := idx_facts t
  show V c main_v79 (((cfg3.win 0).blk t).view.emb (ix2 p k)) = _
  refine congrArg _ ?_
  funext a; apply Fin.ext
  match a with
  | ⟨0, _⟩ => show win3_0.index t (0 : Fin 2) * 3000 + 1 * p.val = t.val * 3000 + p.val; omega
  | ⟨1, _⟩ => show win3_0.index t (1 : Fin 2) * 256 + 1 * k.val = k.val; omega

theorem in1_apply (c : Dev nD) (t : Fin cfg3.N) (k : Fin 256) (q : Fin 256) :
    iblk3 V c 1 t (ix2 k q) = V c main_arg5 (ix2 k q) := by
  obtain ⟨-, -, e0, e1, -⟩ := idx_facts t
  show V c main_arg5 (((cfg3.win 1).blk t).view.emb (ix2 k q)) = _
  refine congrArg _ ?_
  funext a; apply Fin.ext
  match a with
  | ⟨0, _⟩ => show win3_1.index t (0 : Fin 2) * 256 + 1 * k.val = k.val; omega
  | ⟨1, _⟩ => show win3_1.index t (1 : Fin 2) * 256 + 1 * q.val = q.val; omega

theorem in2_apply (c : Dev nD) (t : Fin cfg3.N) (p : Fin 3000) (q : Fin 256) :
    iblk3 V c 2 t (ix2 p q) = V c main_v16 (ix2 (row t p) q) := by
  obtain ⟨-, -, -, -, e0, e1, -⟩ := idx_facts t
  show V c main_v16 (((cfg3.win 2).blk t).view.emb (ix2 p q)) = _
  refine congrArg _ ?_
  funext a; apply Fin.ext
  match a with
  | ⟨0, _⟩ => show win3_2.index t (0 : Fin 2) * 3000 + 1 * p.val = t.val * 3000 + p.val; omega
  | ⟨1, _⟩ => show win3_2.index t (1 : Fin 2) * 256 + 1 * q.val = q.val; omega

theorem out_emb (t : Fin cfg3.N) (p : Fin 3000) (q : Fin 256) :
    ((cfg3.win 3).blk t).view.emb (ix2 p q) = ix2 (row t p) q := by
  obtain ⟨-, -, -, -, -, -, e0, e1⟩ := idx_facts t
  funext a; apply Fin.ext
  match a with
  | ⟨0, _⟩ => show win3_3.index t (0 : Fin 2) * 3000 + 1 * p.val = t.val * 3000 + p.val; omega
  | ⟨1, _⟩ => show win3_3.index t (1 : Fin 2) * 256 + 1 * q.val = q.val; omega

/-- The layer of the arrays the stage finds. -/
abbrev G (c : Dev nD) : S300000x256.Idx → EReal :=
  dotAddRelu (A := 300000) (K := 256) (B := 256) (V c main_v79) (V c main_arg5) (V c main_v16)

/-- What point t writes back is block t of the layer of the arrays. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero origin2]
  simp only [View.ld_unit_zero (S := S3000x256) origin2, View.ld_unit_zero (S := S256x256) origin2]
  funext j
  obtain ⟨p, q, rfl⟩ : ∃ (p : Fin 3000) (q : Fin 256), j = ix2 p q := ⟨j 0, j 1, eq_ix2 j⟩
  show k3_pay1 (iblk3 V c 0 t) (iblk3 V c 1 t) (iblk3 V c 2 t) (ix2 p q)
      = G V c (((cfg3.win 3).blk t).view.emb (ix2 p q))
  rw [out_emb t p q]
  refine (Tiles.update3_apply _ _ _ p q).trans ?_
  show dotAddReluAt _ _ _ p q = dotAddReluAt _ _ _ (row t p) q
  unfold dotAddReluAt
  simp only [in0_apply V c t, in1_apply V c t, in2_apply V c t]

/-- An index of the result is in point t's block iff each coordinate is in the block's range. -/
theorem mem_blk (t : Fin cfg3.N) (i : S300000x256.Idx) :
    i ∈ ((cfg3.win 3).blk t).view.set ↔ ∀ a : Fin 2, win3_3.index t a * S3000x256.size a ≤ (i a).val ∧ (i a).val < win3_3.index t a * S3000x256.size a + S3000x256.size a := by
  show i ∈ ((View.whole main_v80).slice (win3_3.rect t)).set ↔ _
  rw [View.set_slice_whole, Rect.mem_set_unit]
  exact Iff.rfl

/-- Every row of the result is in the block of the point its row number divided by 3000 names. -/
theorem cover (i : S300000x256.Idx) :
    ∃ t : Fin cfg3.N, (cfg3.win 3).flush t = true ∧ i ∈ ((cfg3.win 3).blk t).view.set := by
  have hi0 : (i 0).val < 300000 := (i 0).isLt
  have hi1 : (i 1).val < 256 := (i 1).isLt
  have hN : cfg3.N = 100 := N_3
  let t : Fin cfg3.N := ⟨(i 0).val / 3000, by omega⟩
  have ht : t.val = (i 0).val / 3000 := rfl
  obtain ⟨-, -, -, -, -, -, e0, e1⟩ := idx_facts t
  refine ⟨t, flush3_3 t, ?_⟩
  rw [mem_blk]
  intro a
  match a with
  | ⟨0, _⟩ => show win3_3.index t (0 : Fin 2) * 3000 ≤ (i 0).val ∧ (i 0).val < win3_3.index t (0 : Fin 2) * 3000 + 3000; omega
  | ⟨1, _⟩ => show win3_3.index t (1 : Fin 2) * 256 ≤ (i 1).val ∧ (i 1).val < win3_3.index t (1 : Fin 2) * 256 + 256; omega

/-- The new messages after the stage: the layer of the arrays the stage found. -/
theorem final (c : Dev nD) : (dat3 V c).arrAt 3 cfg3.N = G V c :=
  (dat3 V c).arrAt_eq_of_cover 3 (G V c) (fun t _ => flushed_eq V c t) cover

end Cert.KernelIdeal.Update3

end
-- ==== Proof.Readout.lean ====
/-
  The node readout as a whole array.

  The readout is computed 2000 node rows at a time over 50 grid points: point t reads rows 2000 t … 2000 t + 1999 of
  the node features and of the summed messages, the two weight matrices and the bias row whole, and writes the same
  rows of the result. What point t writes back is block t of the layer's whole-array function of the arrays the stage
  finds, and the 50 blocks tile the 100000 rows.
-/
import proofs.«103938_j57492432224748_1_alg».proof.Proof.Gen.KernelIdeal.Frame
import proofs.«103938_j57492432224748_1_alg».proof.Proof.Tiles
import Idealize.ShloMosaic.Lib.Pipeline.Value

set_option maxRecDepth 16384

noncomputable section

namespace Cert.KernelIdeal.Readout

open Cert.KernelIdeal Cert.KernelIdeal.Gen Idealize.ShloMosaic Idealize.ShloMosaic.TcCoe Idealize.SL.Sem
open Idealize.ShloMosaic.ValueIdx Cert.Layers
open Idealize.ShloMosaic.Pipeline (Dat)

variable (V : (c : Dev nD) → (b : Ref sig .tc) → Buf (Elt Ideal) ((c : Thread nD τ).loc b))

theorem origin2 : (![0, 0] : Fin 2 → Nat) = fun _ => 0 := funext fun a => by fin_cases a <;> rfl

/-- The index maps over the grid: the three row-tiled windows sit at block row t, column block 0; the weights and the
    bias at block (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Row p of point t's tile is row 2000 t + p of the arrays. -/
def row (t : Fin cfg4.N) (p : Fin 2000) : Fin 100000 :=
  ⟨t.val * 2000 + p.val, by have hN : cfg4.N = 50 := N_4; have ht := t.isLt; have hp := p.isLt; omega⟩

theorem in0_apply (c : Dev nD) (t : Fin cfg4.N) (p : Fin 2000) (k : Fin 256) :
    iblk4 V c 0 t (ix2 p k) = V c main_arg0 (ix2 (row t p) k) := by
  obtain ⟨e0, e1, -⟩ := idx_facts t
  show V c main_arg0 (((cfg4.win 0).blk t).view.emb (ix2 p k)) = _
  refine congrArg _ ?_
  funext a; apply Fin.ext
  match a with
  | ⟨0, _⟩ => show win4_0.index t (0 : Fin 2) * 2000 + 1 * p.val = t.val * 2000 + p.val; omega
  | ⟨1, _⟩ => show win4_0.index t (1 : Fin 2) * 256 + 1 * k.val = k.val; omega

theorem in1_apply (c : Dev nD) (t : Fin cfg4.N) (k : Fin 256) (q : Fin 256) :
    iblk4 V c 1 t (ix2 k q) = V c main_arg7 (ix2 k q) := by
  obtain ⟨-, -, e0, e1, -⟩ := idx_facts t
  show V c main_arg7 (((cfg4.win 1).blk t).view.emb (ix2 k q)) = _
  refine congrArg _ ?_
  funext a; apply Fin.ext
  match a with
  | ⟨0, _⟩ => show win4_1.index t (0 : Fin 2) * 256 + 1 * k.val = k.val; omega
  | ⟨1, _⟩ => show win4_1.index t (1 : Fin 2) * 256 + 1 * q.val = q.val; omega

theorem in2_apply (c : Dev nD) (t : Fin cfg4.N) (p : Fin 2000) (k : Fin 256) :
    iblk4 V c 2 t (ix2 p k) = V c main_v83 (ix2 (row t p) k) := by
  obtain ⟨-, -, -, -, e0, e1, -⟩ := idx_facts t
  show V c main_v83 (((cfg4.win 2).blk t).view.emb (ix2 p k)) = _
  refine congrArg _ ?_
  funext a; apply Fin.ext
  match a with
  | ⟨0, _⟩ => show win4_2.index t (0 : Fin 2) * 2000 + 1 * p.val = t.val * 2000 + p.val; omega
  | ⟨1, _⟩ => show win4_2.index t (1 : Fin 2) * 256 + 1 * k.val = k.val; omega

theorem in3_apply (c : Dev nD) (t : Fin cfg4.N) (k : Fin 256) (q : Fin 256) :
    iblk4 V c 3 t (ix2 k q) = V c main_arg8 (ix2 k q) := by
  obtain ⟨-, -, -, -, -, -, e0, e1, -⟩ := idx_facts t
  show V c main_arg8 (((cfg4.win 3).blk t).view.emb (ix2 k q)) = _
  refine congrArg _ ?_
  funext a; apply Fin.ext
  match a with
  | ⟨0, _⟩ => show win4_3.index t (0 : Fin 2) * 256 + 1 * k.val = k.val; omega
  | ⟨1, _⟩ => show win4_3.index t (1 : Fin 2) * 256 + 1 * q.val = q.val; omega

theorem in4_apply (c : Dev nD) (t : Fin cfg4.N) (z : Fin 1) (q : Fin 256) :
    iblk4 V c 4 t (ix2 z q) = V c main_v84 (ix2 z q) := by
  obtain ⟨-, -, -, -, -, -, -, -, e0, e1, -⟩ := idx_facts t
  show V c main_v84 (((cfg4.win 4).blk t).view.emb (ix2 z q)) = _
  refine congrArg _ ?_
  funext a; apply Fin.ext
  match a with
  | ⟨0, _⟩ => show win4_4.index t (0 : Fin 2) * 1 + 1 * z.val = z.val; omega
  | ⟨1, _⟩ => show win4_4.index t (1 : Fin 2) * 256 + 1 * q.val = q.val; omega

theorem out_emb (t : Fin cfg4.N) (p : Fin 2000) (q : Fin 256) :
    ((cfg4.win 5).blk t).view.emb (ix2 p q) = ix2 (row t p) q := by
  obtain ⟨-, -, -, -, -, -, -, -, -, -, e0, e1⟩ := idx_facts t
  funext a; apply Fin.ext
  match a with
  | ⟨0, _⟩ => show win4_5.index t (0 : Fin 2) * 2000 + 1 * p.val = t.val * 2000 + p.val; omega
  | ⟨1, _⟩ => show win4_5.index t (1 : Fin 2) * 256 + 1 * q.val = q.val; omega

/-- The layer of the arrays the stage finds. -/
abbrev G (c : Dev nD) : S100000x256.Idx → EReal :=
  affine2Relu (A := 100000) (K := 256) (L := 256) (B := 256) (V c main_arg0) (V c main_arg7) (V c main_v83) (V c main_arg8) (V c main_v84)

/-- What point t writes back is block t of the layer of the arrays. -/
theorem flushed_eq (c : Dev nD) (t : Fin cfg4.N) :
    (dat4 V c).flushed 5 t = ((cfg4.win 5).blk t).view.read (Elt Ideal) (G V c) := by
  show (cfg4.win 5).cut (grid4.coords t) ((dat4 V c).after 5 t) = _
  rw [after4_5]
  unfold out4_5
  rw [View.canon_unit_zero origin2]
  simp only [View.ld_unit_zero (S := S2000x256) origin2, View.ld_unit_zero (S := S256x256) origin2, View.ld_unit_zero (S := S1x256) origin2]
  funext j
  obtain ⟨p, q, rfl⟩ : ∃ (p : Fin 2000) (q : Fin 256), j = ix2 p q := ⟨j 0, j 1, eq_ix2 j⟩
  show k4_pay1 (iblk4 V c 0 t) (iblk4 V c 1 t) (iblk4 V c 2 t) (iblk4 V c 3 t) (iblk4 V c 4 t) (ix2 p q)
      = G V c (((cfg4.win 5).blk t).view.emb (ix2 p q))
  rw [out_emb t p q]
  refine (Tiles.readout_apply _ _ _ _ _ p q).trans ?_
  show max (affine2At _ _ _ _ _ p q) zero32 = max (affine2At _ _ _ _ _ (row t p) q) zero32
  unfold affine2At
  simp only [in0_apply V c t, in1_apply V c t, in2_apply V c t, in3_apply V c t, in4_apply V c t]

/-- An index of the result is in point t's block iff each coordinate is in the block's range. -/
theorem mem_blk (t : Fin cfg4.N) (i : S100000x256.Idx) :
    i ∈ ((cfg4.win 5).blk t).view.set ↔ ∀ a : Fin 2, win4_5.index t a * S2000x256.size a ≤ (i a).val ∧ (i a).val < win4_5.index t a * S2000x256.size a + S2000x256.size a := by
  show i ∈ ((View.whole main_v85).slice (win4_5.rect t)).set ↔ _
  rw [View.set_slice_whole, Rect.mem_set_unit]
  exact Iff.rfl

/-- Every row of the result is in the block of the point its row number divided by 2000 names. -/
theorem cover (i : S100000x256.Idx) :
    ∃ t : Fin cfg4.N, (cfg4.win 5).flush t = true ∧ i ∈ ((cfg4.win 5).blk t).view.set := by
  have hi0 : (i 0).val < 100000 := (i 0).isLt
  have hi1 : (i 1).val < 256 := (i 1).isLt
  have hN : cfg4.N = 50 := N_4
  let t : Fin cfg4.N := ⟨(i 0).val / 2000, by omega⟩
  have ht : t.val = (i 0).val / 2000 := rfl
  obtain ⟨-, -, -, -, -, -, -, -, -, -, e0, e1⟩ := idx_facts t
  refine ⟨t, flush4_5 t, ?_⟩
  rw [mem_blk]
  intro a
  match a with
  | ⟨0, _⟩ => show win4_5.index t (0 : Fin 2) * 2000 ≤ (i 0).val ∧ (i 0).val < win4_5.index t (0 : Fin 2) * 2000 + 2000; omega
  | ⟨1, _⟩ => show win4_5.index t (1 : Fin 2) * 256 ≤ (i 1).val ∧ (i 1).val < win4_5.index t (1 : Fin 2) * 256 + 256; omega

/-- The result array after the stage: the layer of the arrays the stage found. -/
theorem final (c : Dev nD) : (dat4 V c).arrAt 5 cfg4.N = G V c :=
  (dat4 V c).arrAt_eq_of_cover 5 (G V c) (fun t _ => flushed_eq V c t) cover

end Cert.KernelIdeal.Readout

end
-- ==== Proof.ChainB.lean ====
/-
  The kernel program's buffers, boundary by boundary: from the second update to the result.

  The same bookkeeping as before, carried through the second and third updates and the last stretch of host
  operations to the readout, whose result array is the network of the launch contents of the thirteen arguments.
-/
import proofs.«103938_j57492432224748_1_alg».proof.Proof.ChainA
import proofs.«103938_j57492432224748_1_alg».proof.Proof.Update2
import proofs.«103938_j57492432224748_1_alg».proof.Proof.Update3
import proofs.«103938_j57492432224748_1_alg».proof.Proof.Readout

set_option maxRecDepth 16384

noncomputable section

namespace Cert.KernelIdeal.Chain

open Cert.KernelIdeal Cert.KernelIdeal.Gen Idealize.ShloMosaic Idealize.ShloMosaic.TcCoe Idealize.SL.Sem
open Cert.Layers Cert.Network
open Idealize.ShloMosaic.Pipeline (Dat)

variable (m : (ℓ : Loc nD τ sig) → Buf (Elt Ideal) ℓ) (ρ : Dev nD → PrngReg) (c : Dev nD)

/-! ## After the second update -/

theorem b6_v60 : W6 m ρ c (Proc.devRef .tc main_v60) = msg2 m c := by
  refine (W6_arr m ρ c 3).trans ((Update2.final (V5 m ρ) c).trans ?_)
  show dotAddRelu (A := 300000) (K := 256) (B := 256) (W5 m ρ c (Proc.devRef .tc main_v59)) (W5 m ρ c (Proc.devRef .tc main_arg5)) (W5 m ρ c (Proc.devRef .tc main_v16)) = _
  rw [b5_v59 m ρ c, b5_arg5 m ρ c, b5_v16 m ρ c]
  rfl

theorem b6_arg0 : W6 m ρ c (Proc.devRef .tc main_arg0) = argAt m c main_arg0 :=
  (W6_of_ne m ρ c main_arg0 (by decide)).trans (b5_arg0 m ρ c)

theorem b6_arg7 : W6 m ρ c (Proc.devRef .tc main_arg7) = argAt m c main_arg7 :=
  (W6_of_ne m ρ c main_arg7 (by decide)).trans (b5_arg7 m ρ c)

theorem b6_arg8 : W6 m ρ c (Proc.devRef .tc main_arg8) = argAt m c main_arg8 :=
  (W6_of_ne m ρ c main_arg8 (by decide)).trans (b5_arg8 m ρ c)

theorem b6_arg9 : W6 m ρ c (Proc.devRef .tc main_arg9) = argAt m c main_arg9 :=
  (W6_of_ne m ρ c main_arg9 (by decide)).trans (b5_arg9 m ρ c)

theorem b6_arg10 : W6 m ρ c (Proc.devRef .tc main_arg10) = argAt m c main_arg10 :=
  (W6_of_ne m ρ c main_arg10 (by decide)).trans (b5_arg10 m ρ c)

theorem b6_arg11 : W6 m ρ c (Proc.devRef .tc main_arg11) = argAt m c main_arg11 :=
  (W6_of_ne m ρ c main_arg11 (by decide)).trans (b5_arg11 m ρ c)

theorem b6_v7 : W6 m ρ c (Proc.devRef .tc main_v7) = al m c :=
  (W6_of_ne m ρ c main_v7 (by decide)).trans (b5_v7 m ρ c)

theorem b6_v19 : W6 m ρ c (Proc.devRef .tc main_v19) = rev :=
  (W6_of_ne m ρ c main_v19 (by decide)).trans (b5_v19 m ρ c)

theorem b6_arg5 : W6 m ρ c (Proc.devRef .tc main_arg5) = argAt m c main_arg5 :=
  (W6_arr m ρ c 1).trans (((dat2 (V5 m ρ) c).arrAt_in 1 rfl _).trans ((A_eq2 (V5 m ρ) c 1).trans (b5_arg5 m ρ c)))

theorem b6_v16 : W6 m ρ c (Proc.devRef .tc main_v16) = base m c :=
  (W6_arr m ρ c 2).trans (((dat2 (V5 m ρ) c).arrAt_in 2 rfl _).trans ((A_eq2 (V5 m ρ) c 2).trans (b5_v16 m ρ c)))

/-! ## After the fourth stretch (the third update's operands) -/

theorem b7_arg0 : W7 m ρ c (Proc.devRef .tc main_arg0) = argAt m c main_arg0 :=
  (by kept : W7 m ρ c (Proc.devRef .tc main_arg0) = W6 m ρ c (Proc.devRef .tc main_arg0)).trans (b6_arg0 m ρ c)

theorem b7_arg5 : W7 m ρ c (Proc.devRef .tc main_arg5) = argAt m c main_arg5 :=
  (by kept : W7 m ρ c (Proc.devRef .tc main_arg5) = W6 m ρ c (Proc.devRef .tc main_arg5)).trans (b6_arg5 m ρ c)

theorem b7_arg7 : W7 m ρ c (Proc.devRef .tc main_arg7) = argAt m c main_arg7 :=
  (by kept : W7 m ρ c (Proc.devRef .tc main_arg7) = W6 m ρ c (Proc.devRef .tc main_arg7)).trans (b6_arg7 m ρ c)

theorem b7_arg8 : W7 m ρ c (Proc.devRef .tc main_arg8) = argAt m c main_arg8 :=
  (by kept : W7 m ρ c (Proc.devRef .tc main_arg8) = W6 m ρ c (Proc.devRef .tc main_arg8)).trans (b6_arg8 m ρ c)

theorem b7_arg9 : W7 m ρ c (Proc.devRef .tc main_arg9) = argAt m c main_arg9 :=
  (by kept : W7 m ρ c (Proc.devRef .tc main_arg9) = W6 m ρ c (Proc.devRef .tc main_arg9)).trans (b6_arg9 m ρ c)

theorem b7_arg10 : W7 m ρ c (Proc.devRef .tc main_arg10) = argAt m c main_arg10 :=
  (by kept : W7 m ρ c (Proc.devRef .tc main_arg10) = W6 m ρ c (Proc.devRef .tc main_arg10)).trans (b6_arg10 m ρ c)

theorem b7_arg11 : W7 m ρ c (Proc.devRef .tc main_arg11) = argAt m c main_arg11 :=
  (by kept : W7 m ρ c (Proc.devRef .tc main_arg11) = W6 m ρ c (Proc.devRef .tc main_arg11)).trans (b6_arg11 m ρ c)

theorem b7_v7 : W7 m ρ c (Proc.devRef .tc main_v7) = al m c :=
  (by kept : W7 m ρ c (Proc.devRef .tc main_v7) = W6 m ρ c (Proc.devRef .tc main_v7)).trans (b6_v7 m ρ c)

theorem b7_v16 : W7 m ρ c (Proc.devRef .tc main_v16) = base m c :=
  (by kept : W7 m ρ c (Proc.devRef .tc main_v16) = W6 m ρ c (Proc.devRef .tc main_v16)).trans (b6_v16 m ρ c)

theorem b7_v19 : W7 m ρ c (Proc.devRef .tc main_v19) = rev :=
  (by kept : W7 m ρ c (Proc.devRef .tc main_v19) = W6 m ρ c (Proc.devRef .tc main_v19)).trans (b6_v19 m ρ c)

set_option maxHeartbeats 1600000 in
theorem b7_v79 : W7 m ρ c (Proc.devRef .tc main_v79) = incoming glue (msg2 m c) (argAt m c main_arg10) (argAt m c main_arg11) (al m c) := by
  show StableHlo.after hostOps3 (W6 m ρ c) (Proc.devRef .tc main_v79) = _
  after_results_simp
  rw [b6_v60 m ρ c, b6_arg10 m ρ c, b6_arg11 m ρ c, b6_v19 m ρ c, b6_v7 m ρ c]
  rfl

/-! ## After the third update -/

theorem b8_v80 : W8 m ρ c (Proc.devRef .tc main_v80) = msg3 m c := by
  refine (W8_arr m ρ c 3).trans ((Update3.final (V7 m ρ) c).trans ?_)
  show dotAddRelu (A := 300000) (K := 256) (B := 256) (W7 m ρ c (Proc.devRef .tc main_v79)) (W7 m ρ c (Proc.devRef .tc main_arg5)) (W7 m ρ c (Proc.devRef .tc main_v16)) = _
  rw [b7_v79 m ρ c, b7_arg5 m ρ c, b7_v16 m ρ c]
  rfl

theorem b8_arg0 : W8 m ρ c (Proc.devRef .tc main_arg0) = argAt m c main_arg0 :=
  (W8_of_ne m ρ c main_arg0 (by decide)).trans (b7_arg0 m ρ c)

theorem b8_arg7 : W8 m ρ c (Proc.devRef .tc main_arg7) = argAt m c main_arg7 :=
  (W8_of_ne m ρ c main_arg7 (by decide)).trans (b7_arg7 m ρ c)

theorem b8_arg8 : W8 m ρ c (Proc.devRef .tc main_arg8) = argAt m c main_arg8 :=
  (W8_of_ne m ρ c main_arg8 (by decide)).trans (b7_arg8 m ρ c)

theorem b8_arg9 : W8 m ρ c (Proc.devRef .tc main_arg9) = argAt m c main_arg9 :=
  (W8_of_ne m ρ c main_arg9 (by decide)).trans (b7_arg9 m ρ c)

theorem b8_arg11 : W8 m ρ c (Proc.devRef .tc main_arg11) = argAt m c main_arg11 :=
  (W8_of_ne m ρ c main_arg11 (by decide)).trans (b7_arg11 m ρ c)

/-! ## After the fifth stretch (the readout's operands) -/

theorem b9_arg0 : W9 m ρ c (Proc.devRef .tc main_arg0) = argAt m c main_arg0 :=
  (by kept : W9 m ρ c (Proc.devRef .tc main_arg0) = W8 m ρ c (Proc.devRef .tc main_arg0)).trans (b8_arg0 m ρ c)

theorem b9_arg7 : W9 m ρ c (Proc.devRef .tc main_arg7) = argAt m c main_arg7 :=
  (by kept : W9 m ρ c (Proc.devRef .tc main_arg7) = W8 m ρ c (Proc.devRef .tc main_arg7)).trans (b8_arg7 m ρ c)

theorem b9_arg8 : W9 m ρ c (Proc.devRef .tc main_arg8) = argAt m c main_arg8 :=
  (by kept : W9 m ρ c (Proc.devRef .tc main_arg8) = W8 m ρ c (Proc.devRef .tc main_arg8)).trans (b8_arg8 m ρ c)

set_option maxHeartbeats 1600000 in
theorem b9_v83 : W9 m ρ c (Proc.devRef .tc main_v83) = nodeSum glue (msg3 m c) (argAt m c main_arg11) := by
  show StableHlo.after hostOps4 (W8 m ρ c) (Proc.devRef .tc main_v83) = _
  after_results_simp
  rw [b8_v80 m ρ c, b8_arg11 m ρ c]
  rfl

set_option maxHeartbeats 1600000 in
theorem b9_v84 : W9 m ρ c (Proc.devRef .tc main_v84) = rowOf (argAt m c main_arg9) := by
  show StableHlo.after hostOps4 (W8 m ρ c) (Proc.devRef .tc main_v84) = _
  after_results_simp
  rw [b8_arg9 m ρ c]
  rfl

/-! ## After the readout -/

/-- The result buffer at the last boundary is the network of the arguments' launch contents. -/
theorem result : W10 m ρ c (Proc.devRef .tc main_v85) = net glue (argAt m c main_arg0) (argAt m c main_arg1) (argAt m c main_arg2) (argAt m c main_arg3) (argAt m c main_arg4) (argAt m c main_arg5) (argAt m c main_arg6) (argAt m c main_arg7) (argAt m c main_arg8) (argAt m c main_arg9) (argAt m c main_arg10) (argAt m c main_arg11) (argAt m c main_arg12) := by
  refine (W10_arr m ρ c 5).trans ((Readout.final (V9 m ρ) c).trans ?_)
  show affine2Relu (A := 100000) (K := 256) (L := 256) (B := 256) (W9 m ρ c (Proc.devRef .tc main_arg0)) (W9 m ρ c (Proc.devRef .tc main_arg7)) (W9 m ρ c (Proc.devRef .tc main_v83)) (W9 m ρ c (Proc.devRef .tc main_arg8)) (W9 m ρ c (Proc.devRef .tc main_v84)) = _
  rw [b9_arg0 m ρ c, b9_arg7 m ρ c, b9_v83 m ρ c, b9_arg8 m ρ c, b9_v84 m ρ c]
  rfl

end Cert.KernelIdeal.Chain

end
-- ==== Proof.RefNet.lean ====
/-
  The reference program computes the network.

  The reference's run ends with its result at one composed term of the thirteen arguments: the host glue exactly as
  the network's specification spells it, and the three dense layers spelled as a host program spells them — one
  dot_general per product, the bias vector made a row and repeated down the rows, the rectifier a maximum with a
  repeated zero. Entry by entry those spellings are the layers' functions (the update's sum is taken in the other
  order, which does not matter on extended reals), so the term is the network of the arguments.
-/
import proofs.«103938_j57492432224748_1_alg».proof.Proof.Gen.ReferenceIdeal.Run
import proofs.«103938_j57492432224748_1_alg».proof.Proof.Network

set_option maxRecDepth 16384

noncomputable section

namespace Cert.ReferenceIdeal.Net

open Cert.ReferenceIdeal Cert.ReferenceIdeal.Gen Idealize.ShloMosaic Idealize.ShloMosaic.TcCoe Idealize.SL.Sem
open Idealize.ShloMosaic.ValueIdx Cert.Layers Cert.Network Cert.Lib

/-- The reference's four records of dimension numbers. -/
def glue : Glue where
  gN := gather_S100000x256_S300000x1_S300000x256_1_0_n_n_0_1_1256
  gE := gather_S300000x256_S300000x1_S300000x256_1_0_n_n_0_1_1256
  sN := scatter_S100000x256_S300000x1_S300000x256_1_0_0_1
  sA := scatter_S300000x256_S10000x1_S10000x256_1_0_0_1

/-! ## The three layers as the reference spells them -/

def embedH (g : Fl SE) (w1 : Fl SW) (e : Fl SF) (w2 : Fl SV) (b1 : Fl SB) : Fl SE :=
  addf (addf (Host.dotGeneral dot_S300000x256_S256x256_S300000x256_1_0_0_1_n_n none g w1)
             (Host.dotGeneral dot_S300000x64_S64x256_S300000x256_1_0_0_1_n_n none e w2))
       (broadcastInDim S300000x256 ![0, 1] bcast_S1x256_S300000x256_0_1 (broadcastInDim S1x256 ![1] bcast_S256_S1x256_1 b1))

def updateH (x : Fl SE) (w3 : Fl SW) (base : Fl SE) : Fl SE :=
  maximumf (addf base (Host.dotGeneral dot_S300000x256_S256x256_S300000x256_1_0_0_1_n_n none x w3))
    (broadcastInDim S300000x256 ![] bcast_S_S300000x256 (constant (F := Ideal) S_ .f32 0x00000000#32))

def readoutH (a : Fl SN) (w4 : Fl SW) (n : Fl SN) (w5 : Fl SW) (b2 : Fl SB) : Fl SN :=
  maximumf (addf (addf (Host.dotGeneral dot_S100000x256_S256x256_S100000x256_1_0_0_1_n_n none a w4)
                       (Host.dotGeneral dot_S100000x256_S256x256_S100000x256_1_0_0_1_n_n none n w5))
                 (broadcastInDim S100000x256 ![0, 1] bcast_S1x256_S100000x256_0_1 (broadcastInDim S1x256 ![1] bcast_S256_S1x256_1 b2)))
    (broadcastInDim S100000x256 ![] bcast_S_S100000x256 (constant (F := Ideal) S_ .f32 0x00000000#32))

theorem embedH_eq (g : Fl SE) (w1 : Fl SW) (e : Fl SF) (w2 : Fl SV) (b1 : Fl SB) : embedH g w1 e w2 b1 = embed g w1 e w2 b1 := by
  funext i
  obtain ⟨p, q, rfl⟩ : ∃ (p : Fin 300000) (q : Fin 256), i = ix2 p q := ⟨i 0, i 1, eq_ix2 i⟩
  exact hostAffine2_apply dot_S300000x256_S256x256_S300000x256_1_0_0_1_n_n.wf dot_S300000x64_S64x256_S300000x256_1_0_0_1_n_n.wf
    g w1 e w2 b1 bcast_S256_S1x256_1 bcast_S1x256_S300000x256_0_1 cBR p q

theorem updateH_eq (x : Fl SE) (w3 : Fl SW) (base : Fl SE) : updateH x w3 base = update x w3 base := by
  funext i
  obtain ⟨p, q, rfl⟩ : ∃ (p : Fin 300000) (q : Fin 256), i = ix2 p q := ⟨i 0, i 1, eq_ix2 i⟩
  exact hostDotAddRelu_apply dot_S300000x256_S256x256_S300000x256_1_0_0_1_n_n.wf x w3 base bcast_S_S300000x256 p q

theorem readoutH_eq (a : Fl SN) (w4 : Fl SW) (n : Fl SN) (w5 : Fl SW) (b2 : Fl SB) : readoutH a w4 n w5 b2 = readout a w4 n w5 b2 := by
  funext i
  obtain ⟨p, q, rfl⟩ : ∃ (p : Fin 100000) (q : Fin 256), i = ix2 p q := ⟨i 0, i 1, eq_ix2 i⟩
  exact hostAffine2Relu_apply dot_S100000x256_S256x256_S100000x256_1_0_0_1_n_n.wf dot_S100000x256_S256x256_S100000x256_1_0_0_1_n_n.wf
    a w4 n w5 b2 bcast_S256_S1x256_1 bcast_S1x256_S100000x256_0_1 bcast_S_S100000x256 cBR p q

/-! ## The network as the reference spells it -/

def stepH (src dst : In SI) (al base : Fl SE) (w3 : Fl SW) (msg : Fl SE) : Fl SE :=
  updateH (incoming glue msg src dst al) w3 base

def netH (a0 : Fl SN) (a1 : Fl SF) (a2 : Fl ST) (a3 : Fl SW) (a4 : Fl SV) (a5 : Fl SW) (a6 : Fl SB) (a7 a8 : Fl SW) (a9 : Fl SB)
    (a10 a11 : In SI) (a12 : In SJ) : Fl SN :=
  readoutH a0 a7
    (nodeSum glue
      (stepH a10 a11 (alpha glue a12 a2) (embedH (atSrc glue a0 a10) a3 a1 a4 a6) a5
        (stepH a10 a11 (alpha glue a12 a2) (embedH (atSrc glue a0 a10) a3 a1 a4 a6) a5
          (stepH a10 a11 (alpha glue a12 a2) (embedH (atSrc glue a0 a10) a3 a1 a4 a6) a5 zerosE))) a11)
    a8 a9

theorem netH_eq (a0 : Fl SN) (a1 : Fl SF) (a2 : Fl ST) (a3 : Fl SW) (a4 : Fl SV) (a5 : Fl SW) (a6 : Fl SB) (a7 a8 : Fl SW) (a9 : Fl SB)
    (a10 a11 : In SI) (a12 : In SJ) :
    netH a0 a1 a2 a3 a4 a5 a6 a7 a8 a9 a10 a11 a12 = net glue a0 a1 a2 a3 a4 a5 a6 a7 a8 a9 a10 a11 a12 := by
  unfold netH net stepH step
  simp only [embedH_eq, updateH_eq, readoutH_eq]

/-- The reference's result term is the network of its arguments. -/
theorem result_eq (m : (ℓ : Loc nD τ sig) → Buf (Elt Ideal) ℓ) (c : Dev nD) :
    Value.res_main_v100 m c = net glue (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) := by
  rw [← netH_eq]
  unfold Value.res_main_v100
  rfl

end Cert.ReferenceIdeal.Net

end
-- ==== Proof.lean ====
/-
  The proof of the certificate's claim: a message-passing network over a graph's directed edges, its dense layers
  launched as row-tiled stages, against a reference that computes every layer with whole-array host operations.

  Both programs gather node rows onto edges, scatter tree messages onto edges, and three times sum the messages at
  the nodes, gather the sums back and subtract each edge's reverse message, with the same host operations on the same
  operands; between these they apply three dense layers. The kernel computes each layer a block of rows at a time,
  with operands narrowed to a 16-bit format before each product and the products accumulated from zero; the reference
  computes each with one dot_general per product. On extended reals the narrowing is the identity, a product into a
  zero accumulator and a dot_general are the same sum over the contracted index, the row blocks tile the arrays, and
  the one difference of order — the kernel adds the edge embedding to the product, the reference the product to the
  embedding — is the commutativity of the sum. So both results are one function of the thirteen arguments (the
  network of the specification module), whatever the index arrays hold: no precondition is used.

  The frames of the two kernel programs are the generated ones; the reference's is its generated run with the result
  dropped; no operation was rewritten by the idealization, so the preservation claim is trivial.
-/
import proofs.«103938_j57492432224748_1_alg».proof.Defs
import proofs.«103938_j57492432224748_1_alg».proof.Proof.Gen.Kernel
import proofs.«103938_j57492432224748_1_alg».proof.Proof.Gen.Kernel.Frame
import proofs.«103938_j57492432224748_1_alg».proof.Proof.Gen.KernelIdeal
import proofs.«103938_j57492432224748_1_alg».proof.Proof.Gen.KernelIdeal.Frame
import proofs.«103938_j57492432224748_1_alg».proof.Proof.Gen.ReferenceIdeal
import proofs.«103938_j57492432224748_1_alg».proof.Proof.Gen.ReferenceIdeal.Run
import proofs.«103938_j57492432224748_1_alg».proof.Proof.Gen.Pre_finite_inputs
import proofs.«103938_j57492432224748_1_alg».proof.Proof.Named
import proofs.«103938_j57492432224748_1_alg».proof.Proof.ChainB
import proofs.«103938_j57492432224748_1_alg».proof.Proof.RefNet
import Idealize.ShloMosaic.Adequacy
import Idealize.ShloMosaic.Init

noncomputable section

namespace Cert.Proof

open Idealize.ShloMosaic Idealize.ShloMosaic.TcCoe Idealize.SL.Sem

/-- The two programs print the same dimension numbers for their four irregular operations. -/
theorem glue_eq : Cert.KernelIdeal.Chain.glue = Cert.ReferenceIdeal.Net.glue := rfl

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the network of the arguments as their result. -/
theorem algebraic : Cert.algebraic_KernelIdeal_ReferenceIdeal := by
  intro m ρ m' ρ' _ hagree
  refine ⟨fun c => Cert.Network.net Cert.KernelIdeal.Chain.glue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun r h c => ⟨(h c).1.trans (Cert.KernelIdeal.Chain.result m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12⟩ := hagree c
    rw [Cert.ReferenceIdeal.Net.result_eq, glue_eq, h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
